-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v64_0)) (v1 : (c : Dev Cert.KernelIdeal.nD) → Buf (Elt Ideal) ((c.tc : Thread Cert.KernelIdeal.nD Cert.KernelIdeal.τ).loc Cert.KernelIdeal.main_v64_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64_0) = v0 c
          ∧ r.2.mem ((c.tc : Thread Cert.KernelIdeal.nD Cert.KernelIdeal.τ).loc Cert.KernelIdeal.main_v64_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_v96) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S128x10 : Shape := ⟨2, ![128, 10]⟩
abbrev S10 : Shape := ⟨1, ![10]⟩
abbrev S2x1600000 : Shape := ⟨2, ![2, 1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg4 : FVec F S128 .f32) (main_arg5 : FVec F S128x10 .f32) (main_arg6 : FVec F S10 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x10 .f32 := Host.absf main_arg5
  let main_cst_8 : FVec F S_ .f32 := constant S_ .f32 0x7F800000#32
  let main_v25 : FVec F S128x10 .f32 := broadcastInDim S128x10 ![] bcast_S_S128x10 main_cst_8
  let main_v26 : IVec S128x10 1 := cmpf .olt main_v24 main_v25
  let main_c_9 : IVec S_ 1 := constantI S_ 1 1#1
  let main_v27 : IVec S_ 1 := (fun x v => Host.reduce IntOp.andi x v reducesTo_S128x10_S_d0_1 h_S_) main_v26 main_c_9
  let main_v28 : IVec S_ 1 := andi main_v23 main_v27
  let main_v29 : FVec F S10 .f32 := Host.absf main_arg6
  let main_cst_10 : FVec F S_ .f32 := constant S_ .f32 0x7F800000#32
  let main_v30 : FVec F S10 .f32 := broadcastInDim S10 ![] bcast_S_S10 main_cst_10
  let main_v31 : IVec S10 1 := cmpf .olt main_v29 main_v30
  let main_c_11 : IVec S_ 1 := constantI S_ 1 1#1
  let main_v32 : IVec S_ 1 := (fun x v => Host.reduce IntOp.andi x v reducesTo_S10_S_d0 h_S_) main_v31 main_c_11
  let main_v33 : IVec S_ 1 := andi main_v28 main_v32
  main_v33

def fn {F : FTy → Type} [FloatOps F] (main_arg0 : FVec F S100000x128 .f32) (main_arg1 : FVec F S128x128 .f32) (main_arg2 : FVec F S128 .f32) (main_arg3 : FVec F S128x128 .f32) (main_arg4 : FVec F S128 .f32) (main_arg5 : FVec F S128x10 .f32) (main_arg6 : FVec F S10 .f32) (main_arg7 : IVec S2x1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_v13 main_v16
-- ==== Kernel.lean ====
abbrev S100000x128 : Shape := ⟨2, ![100000, 128]⟩
abbrev S128x128 : Shape := ⟨2, ![128, 128]⟩
abbrev S128 : Shape := ⟨1, ![128]⟩
abbrev S128x10 : Shape := ⟨2, ![128, 10]⟩
abbrev S10 : Shape := ⟨1, ![10]⟩
abbrev S2x1600000 : Shape := ⟨2, ![2, 1600000]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S10000x128 : Shape := ⟨2, ![10000, 128]⟩
abbrev S1700000x128 : Shape := ⟨2, ![1700000, 128]⟩
abbrev S1x128 : Shape := ⟨2, ![1, 128]⟩
abbrev S1x10 : Shape := ⟨2, ![1, 10]⟩
abbrev S100000x10 : Shape := ⟨2, ![100000, 10]⟩
abbrev S5000x128 : Shape := ⟨2, ![5000, 128]⟩
abbrev S5000x10 : Shape := ⟨2, ![5000, 10]⟩

abbrev nBuf : Space → Nat
  | .hbm => 91
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x10, .f32⟩
  | .hbm, ⟨6, _⟩ => ⟨S10, .f32⟩
  | .hbm, ⟨7, _⟩ => ⟨S2x1600000, .i32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S100000, .i32⟩
  | .hbm, ⟨13, _⟩ => ⟨S1700000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000, .f32⟩
  | .hbm, ⟨49, _⟩ => ⟨S1700000, .f32⟩
  | .hbm, ⟨50, _⟩ => ⟨S100000x128, .bf16⟩
  | .hbm, ⟨51, _⟩ => ⟨S_, .i32⟩
  | .hbm, ⟨52, _⟩ => ⟨S1700000, .i32⟩
  | .hbm, ⟨53, _⟩ => ⟨S1700000, .i1⟩
  | .hbm, ⟨54, _⟩ => ⟨S_, .i32⟩
  | .hbm, ⟨55, _⟩ => ⟨S1700000, .i32⟩
  | .hbm, ⟨56, _⟩ => ⟨S1700000, .i32⟩
  | .hbm, ⟨57, _⟩ => ⟨S1700000, .i32⟩
  | .hbm, ⟨58, _⟩ => ⟨S1700000x1, .i32⟩
  | .hbm, ⟨59, _⟩ => ⟨S1700000x128, .bf16⟩
  | .hbm, ⟨60, _⟩ => ⟨S1700000x128, .f32⟩
  | .hbm, ⟨61, _⟩ => ⟨S1700000x1, .f32⟩
  | .hbm, ⟨62, _⟩ => ⟨S1700000x128, .f32⟩
  | .hbm, ⟨63, _⟩ => ⟨S1700000x128, .f32⟩
  | .hbm, ⟨64, _⟩ => ⟨S_, .f32⟩
  | .hbm, ⟨65, _⟩ => ⟨S100000x128, .f32⟩
  | .hbm, ⟨66, _⟩ => ⟨S1700000x1, .i32⟩
  | .hbm, ⟨67, _⟩ => ⟨S100000x128, .f32⟩
  | .hbm, ⟨68, _⟩ => ⟨S1x128, .f32⟩
  | .hbm, ⟨69, _⟩ => ⟨S100000x128, .bf16⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x128, .bf16⟩
  | .hbm, ⟨79, _⟩ => ⟨S1700000x128, .f32⟩
  | .hbm, ⟨80, _⟩ => ⟨S1700000x1, .f32⟩
  | .hbm, ⟨81, _⟩ => ⟨S1700000x128, .f32⟩
  | .hbm, ⟨82, _⟩ => ⟨S1700000x128, .f32⟩
  | .hbm, ⟨83, _⟩ => ⟨S_, .f32⟩
  | .hbm, ⟨84, _⟩ => ⟨S100000x128, .f32⟩
  | .hbm, ⟨85, _⟩ => ⟨S1700000x1, .i32⟩
  | .hbm, ⟨86, _⟩ => ⟨S100000x128, .f32⟩
  | .hbm, ⟨87, _⟩ => ⟨S1x128, .f32⟩
  | .hbm, ⟨88, _⟩ => ⟨S1x10, .f32⟩
  | .hbm, ⟨89, _⟩ => ⟨S100000x128, .f32⟩
  | .hbm, ⟨90, _⟩ => ⟨S100000x10, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .bf16⟩
  | .local _ .vmem, ⟨4, _⟩ => ⟨S10000x128, .bf16⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S128x128, .f32⟩
  | .local _ .vmem, ⟨9, _⟩ => ⟨S10000x128, .bf16⟩
  | .local _ .vmem, ⟨10, _⟩ => ⟨S10000x128, .bf16⟩
  | .local _ .vmem, ⟨11, _⟩ => ⟨S5000x128, .f32⟩
  | .local _ .vmem, ⟨12, _⟩ => ⟨S5000x128, .f32⟩
  | .local _ .vmem, ⟨13, _⟩ => ⟨S1x128, .f32⟩
  | .local _ .vmem, ⟨14, _⟩ => ⟨S128x10, .f32⟩
  | .local _ .vmem, ⟨15, _⟩ => ⟨S1x10, .f32⟩
  | .local _ .vmem, ⟨16, _⟩ => ⟨S5000x128, .f32⟩
  | .local _ .vmem, ⟨17, _⟩ => ⟨S5000x128, .f32⟩
  | .local _ .vmem, ⟨18, _⟩ => ⟨S5000x10, .f32⟩
  | .local _ .vmem, ⟨19, _⟩ => ⟨S5000x10, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_4 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_5 : Ref sig .tc := ⟨.hbm, 40, rfl⟩
abbrev main_v23 : Ref sig .tc := ⟨.hbm, 41, rfl⟩
abbrev main_v24 : Ref sig .tc := ⟨.hbm, 42, rfl⟩
abbrev main_c_6 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_7 : Ref sig .tc := ⟨.hbm, 51, rfl⟩
abbrev main_v32 : Ref sig .tc := ⟨.hbm, 52, rfl⟩
abbrev main_v33 : Ref sig .tc := ⟨.hbm, 53, rfl⟩
abbrev main_c_8 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_c_10 : Ref sig .tc := ⟨.hbm, 70, rfl⟩
abbrev main_v48 : Ref sig .tc := ⟨.hbm, 71, rfl⟩
abbrev main_v49 : Ref sig .tc := ⟨.hbm, 72, rfl⟩
abbrev main_c_11 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64_0 : Ref sig .tc := ⟨.hbm, 89, rfl⟩
abbrev main_v64_1 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg4_1 : Ref sig .tc := ⟨.vmem, 17, rfl⟩
abbrev cc2_stg5_0 : Ref sig .tc := ⟨.vmem, 18, rfl⟩
abbrev cc2_stg5_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem4_1 : DmaSem sig := 17
abbrev cc2_sem5_0 : DmaSem sig := 18
abbrev cc2_sem5_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x10 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x10 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S5000x10 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  packedbf16_S10000x128_S10000x128_0_0 : (Rect.unit (s := S10000x128) ![0, 0] S10000x128.size inb_S10000x128_S10000x128_0_0).PackedRows (EltTy.packing .bf16)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  shapeCasts_S10_S1x10 : S10.ShapeCasts S1x10
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S1x128_S5000x128 : S1x128.Broadcasts S5000x128
  inb_S128x10_S128x10_0_0 : ∀ a, (![0, 0] : Fin 2 → Nat) a + S128x10.size a ≤ S128x10.size a
  h_S128x10 : 0 < S128x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S5000x10 : S1x10.Broadcasts S5000x10
  inb_S5000x10_S5000x10_0_0 : ∀ a, (![0, 0] : Fin 2 → Nat) a + S5000x10.size a ≤ S5000x10.size a
  h_S5000x10 : 0 < S5000x10.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x128_S10000x128_1_0_0_1_n_n_wf : DotDims.WF S10000x128 S128x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x10_S5000x10_1_0_0_1_n_n_wf : DotDims.WF S5000x128 S128x10 S5000x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .bf16 = 32 ∨ (Rect.block (s := S100000x128) S10000x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x128.size a ≤ S100000x128.size a
  hwx1_3 : ∀ i : grid1.Coords, EltTy.bits .bf16 = 32 ∨ (Rect.block (s := S100000x128) S10000x128.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x10.size a ≤ S128x10.size a
  hwx2_2 : ∀ i : grid2.Coords, EltTy.bits .f32 = 32 ∨ (Rect.block (s := S128x10) S128x10.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x10.size a ≤ S1x10.size a
  hwx2_3 : ∀ i : grid2.Coords, EltTy.bits .f32 = 32 ∨ (Rect.block (s := S1x10) S1x10.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S100000x128.size a
  hwx2_4 : ∀ i : grid2.Coords, EltTy.bits .f32 = 32 ∨ (Rect.block (s := S100000x128) S5000x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x10.size a ≤ S100000x10.size a
  hwx2_5 : ∀ i : grid2.Coords, EltTy.bits .f32 = 32 ∨ (Rect.block (s := S100000x10) S5000x10.size (cc2_transform_5 i) (hinb2_5 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x10_S5000x10_1_0_0_1_n_n : DotDims S5000x128 S128x10 S5000x10 where
  lhsContracting := [1]
  rhsContracting := [0]
  lhsNonContracting := [0]
  rhsNonContracting := [1]
  lhsBatch := []
  rhsBatch := []
  wf := dot_S5000x128_S128x10_S5000x10_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S10000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v61) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v62) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S128x10.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v63) S1x10.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v64_0) S5000x128.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v64_1) S5000x10.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S128x10 : Shape := ⟨2, ![128, 10]⟩
abbrev S10 : Shape := ⟨1, ![10]⟩
abbrev S2x1600000 : Shape := ⟨2, ![2, 1600000]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x10 : Shape := ⟨2, ![100000, 10]⟩
abbrev S1x10 : Shape := ⟨2, ![1, 10]⟩

abbrev nBuf : Space → Nat
  | .hbm => 135
  | .vmem => 0
  | .smem => 0
  | _ => 0

abbrev hbmTy0_0 (i : Nat) : BufTy := match i % 128 with
  | 0 => ⟨S100000x128, .f32⟩
  | 1 => ⟨S128x128, .f32⟩
  | 2 => ⟨S128, .f32⟩
  | 3 => ⟨S128x128, .f32⟩
  | 4 => ⟨S128, .f32⟩
  | 5 => ⟨S128x10, .f32⟩
  | 6 => ⟨S10, .f32⟩
  | 7 => ⟨S2x1600000, .i32⟩
  | 8 => ⟨S1x1600000, .i32⟩
  | 9 => ⟨S1600000, .i32⟩
  | 10 => ⟨S1x1600000, .i32⟩
  | 11 => ⟨S1600000, .i32⟩
  | 12 => ⟨S100000x128, .f32⟩
  | 13 => ⟨S100000, .i32⟩
  | 14 => ⟨S1700000, .i32⟩
  | 15 => ⟨S1700000, .i32⟩
  | 16 => ⟨S_, .f32⟩
  | 17 => ⟨S1700000, .f32⟩
  | 18 => ⟨S_, .f32⟩
  | 19 => ⟨S100000, .f32⟩
  | 20 => ⟨S1700000x1, .i32⟩
  | 21 => ⟨S100000, .f32⟩
  | 22 => ⟨S_, .f32⟩
  | 23 => ⟨S100000, .f32⟩
  | 24 => ⟨S100000, .i1⟩
  | 25 => ⟨S_, .f32⟩
  | 26 => ⟨S_, .f32⟩
  | 27 => ⟨S100000, .f32⟩
  | 28 => ⟨S100000, .f32⟩
  | 29 => ⟨S_, .f32⟩
  | 30 => ⟨S100000, .f32⟩
  | 31 => ⟨S100000, .f32⟩
  | 32 => ⟨S_, .i32⟩
  | 33 => ⟨S1700000, .i32⟩
  | 34 => ⟨S1700000, .i1⟩
  | 35 => ⟨S_, .i32⟩
  | 36 => ⟨S1700000, .i32⟩
  | 37 => ⟨S1700000, .i32⟩
  | 38 => ⟨S1700000, .i32⟩
  | 39 => ⟨S1700000x1, .i32⟩
  | 40 => ⟨S1700000, .f32⟩
  | 41 => ⟨S_, .i32⟩
  | 42 => ⟨S1700000, .i32⟩
  | 43 => ⟨S1700000, .i1⟩
  | 44 => ⟨S_, .i32⟩
  | 45 => ⟨S1700000, .i32⟩
  | 46 => ⟨S1700000, .i32⟩
  | 47 => ⟨S1700000, .i32⟩
  | 48 => ⟨S1700000x1, .i32⟩
  | 49 => ⟨S1700000, .f32⟩
  | 50 => ⟨S1700000, .f32⟩
  | 51 => ⟨S_, .i32⟩
  | 52 => ⟨S1700000, .i32⟩
  | 53 => ⟨S1700000, .i1⟩
  | 54 => ⟨S_, .i32⟩
  | 55 => ⟨S1700000, .i32⟩
  | 56 => ⟨S1700000, .i32⟩
  | 57 => ⟨S1700000, .i32⟩
  | 58 => ⟨S1700000x1, .i32⟩
  | 59 => ⟨S1700000x128, .f32⟩
  | 60 => ⟨S1700000x1, .f32⟩
  | 61 => ⟨S1700000x128, .f32⟩
  | 62 => ⟨S1700000x128, .f32⟩
  | 63 => ⟨S_, .f32⟩
  | 64 => ⟨S100000x128, .f32⟩
  | 65 => ⟨S1700000x1, .i32⟩
  | 66 => ⟨S100000x128, .f32⟩
  | 67 => ⟨S1x128, .f32⟩
  | 68 => ⟨S100000x128, .f32⟩
  | 69 => ⟨S100000x128, .f32⟩
  | 70 => ⟨S_, .f32⟩
  | 71 => ⟨S100000x128, .f32⟩
  | 72 => ⟨S100000x128, .f32⟩
  | 73 => ⟨S100000x128, .f32⟩
  | 74 => ⟨S100000, .i32⟩
  | 75 => ⟨S1700000, .i32⟩
  | 76 => ⟨S1700000, .i32⟩
  | 77 => ⟨S_, .f32⟩
  | 78 => ⟨S1700000, .f32⟩
  | 79 => ⟨S_, .f32⟩
  | 80 => ⟨S100000, .f32⟩
  | 81 => ⟨S1700000x1, .i32⟩
  | 82 => ⟨S100000, .f32⟩
  | 83 => ⟨S_, .f32⟩
  | 84 => ⟨S100000, .f32⟩
  | 85 => ⟨S100000, .i1⟩
  | 86 => ⟨S_, .f32⟩
  | 87 => ⟨S_, .f32⟩
  | 88 => ⟨S100000, .f32⟩
  | 89 => ⟨S100000, .f32⟩
  | 90 => ⟨S_, .f32⟩
  | 91 => ⟨S100000, .f32⟩
  | 92 => ⟨S100000, .f32⟩
  | 93 => ⟨S_, .i32⟩
  | 94 => ⟨S1700000, .i32⟩
  | 95 => ⟨S1700000, .i1⟩
  | 96 => ⟨S_, .i32⟩
  | 97 => ⟨S1700000, .i32⟩
  | 98 => ⟨S1700000, .i32⟩
  | 99 => ⟨S1700000, .i32⟩
  | 100 => ⟨S1700000x1, .i32⟩
  | 101 => ⟨S1700000, .f32⟩
  | 102 => ⟨S_, .i32⟩
  | 103 => ⟨S1700000, .i32⟩
  | 104 => ⟨S1700000, .i1⟩
  | 105 => ⟨S_, .i32⟩
  | 106 => ⟨S1700000, .i32⟩
  | 107 => ⟨S1700000, .i32⟩
  | 108 => ⟨S1700000, .i32⟩
  | 109 => ⟨S1700000x1, .i32⟩
  | 110 => ⟨S1700000, .f32⟩
  | 111 => ⟨S1700000, .f32⟩
  | 112 => ⟨S_, .i32⟩
  | 113 => ⟨S1700000, .i32⟩
  | 114 => ⟨S1700000, .i1⟩
  | 115 => ⟨S_, .i32⟩
  | 116 => ⟨S1700000, .i32⟩
  | 117 => ⟨S1700000, .i32⟩
  | 118 => ⟨S1700000, .i32⟩
  | 119 => ⟨S1700000x1, .i32⟩
  | 120 => ⟨S1700000x128, .f32⟩
  | 121 => ⟨S1700000x1, .f32⟩
  | 122 => ⟨S1700000x128, .f32⟩
  | 123 => ⟨S1700000x128, .f32⟩
  | 124 => ⟨S_, .f32⟩
  | 125 => ⟨S100000x128, .f32⟩
  | 126 => ⟨S1700000x1, .i32⟩
  | 127 => ⟨S100000x128, .f32⟩
  | _ => ⟨S100000x128, .f32⟩

abbrev hbmTy0_1 (i : Nat) : BufTy := match i % 128 with
  | 0 => ⟨S1x128, .f32⟩
  | 1 => ⟨S100000x128, .f32⟩
  | 2 => ⟨S100000x128, .f32⟩
  | 3 => ⟨S100000x10, .f32⟩
  | 4 => ⟨S1x10, .f32⟩
  | 5 => ⟨S100000x10, .f32⟩
  | 6 => ⟨S100000x10, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_cst_3 : Ref sig .tc := ⟨.hbm, 29, rfl⟩
abbrev main_v15 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_7 : Ref sig .tc := ⟨.hbm, 51, rfl⟩
abbrev main_v32 : Ref sig .tc := ⟨.hbm, 52, rfl⟩
abbrev main_v33 : Ref sig .tc := ⟨.hbm, 53, rfl⟩
abbrev main_c_8 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_9 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_call1_cst : Ref sig .tc := ⟨.hbm, 70, rfl⟩
abbrev main_call1_v0 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_10 : Ref sig .tc := ⟨.hbm, 77, rfl⟩
abbrev main_v53 : Ref sig .tc := ⟨.hbm, 78, rfl⟩
abbrev main_cst_11 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_12 : Ref sig .tc := ⟨.hbm, 83, rfl⟩
abbrev main_v57 : Ref sig .tc := ⟨.hbm, 84, rfl⟩
abbrev main_v58 : Ref sig .tc := ⟨.hbm, 85, rfl⟩
abbrev main_cst_13 : Ref sig .tc := ⟨.hbm, 86, rfl⟩
abbrev main_call2_v0 : Ref sig .tc := ⟨.hbm, 87, rfl⟩
abbrev main_call2_v1 : Ref sig .tc := ⟨.hbm, 88, rfl⟩
abbrev main_v59 : Ref sig .tc := ⟨.hbm, 89, rfl⟩
abbrev main_cst_14 : Ref sig .tc := ⟨.hbm, 90, rfl⟩
abbrev main_v60 : Ref sig .tc := ⟨.hbm, 91, rfl⟩
abbrev main_v61 : Ref sig .tc := ⟨.hbm, 92, rfl⟩
abbrev main_c_15 : Ref sig .tc := ⟨.hbm, 93, rfl⟩
abbrev main_v62 : Ref sig .tc := ⟨.hbm, 94, rfl⟩
abbrev main_v63 : Ref sig .tc := ⟨.hbm, 95, rfl⟩
abbrev main_c_16 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_c_17 : Ref sig .tc := ⟨.hbm, 102, rfl⟩
abbrev main_v69 : Ref sig .tc := ⟨.hbm, 103, rfl⟩
abbrev main_v70 : Ref sig .tc := ⟨.hbm, 104, rfl⟩
abbrev main_c_18 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_c_19 : Ref sig .tc := ⟨.hbm, 112, rfl⟩
abbrev main_v77 : Ref sig .tc := ⟨.hbm, 113, rfl⟩
abbrev main_v78 : Ref sig .tc := ⟨.hbm, 114, rfl⟩
abbrev main_c_20 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_cst_21 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S10_S1x10_1 : S10.BroadcastsInDim S1x10 (![1] : Fin 1 → Fin S1x10.rank)
  bcast_S1x10_S100000x10_0_1 : S1x10.BroadcastsInDim S100000x10 (![0, 1] : Fin 2 → Fin S100000x10.rank)
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x10_S100000x10_1_0_0_1_n_n_wf : DotDims.WF S100000x128 S128x10 S100000x10 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x10_S100000x10_1_0_0_1_n_n : DotDims S100000x128 S128x10 S100000x10 where
  lhsContracting := [1]
  rhsContracting := [0]
  lhsNonContracting := [0]
  rhsNonContracting := [1]
  lhsBatch := []
  rhsBatch := []
  wf := dot_S100000x128_S128x10_S100000x10_1_0_0_1_n_n_wf

class Facts : Prop extends Facts₀ where

variable [Facts]
-- ==== Proof.KernelRun.lean ====
/-
  The idealized kernel's run with its two result arrays named: every weakly fair execution of @main terminates, nothing
  faulting, with each result buffer at the contents the fold through @main's segments gives it after the last region
  (`Gen.W8`: the launch memory carried through the host operations and the three regions' write-backs), and the
  arguments unchanged. It is the launch theorem for a program of several regions applied to @main's segments, with the
  two result buffers kept in the conclusion beside the arguments.
-/
import proofs.«164294_j83013127897500_2_alg».proof.Proof.Gen.KernelIdeal.Frame

set_option maxRecDepth 16384

noncomputable section

namespace Cert.KernelIdeal.Out

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: both result buffers end at the fold's contents after the last region, the arguments as launched. -/
theorem run_out : θ_run defs (onTc (τ := τ) (main (F := F))) ⟨m, fun _ => 0, ρ⟩ (fun r => ∀ c : Dev nD,
      r.2.mem ((c.tc : Thread nD τ).loc main_v64_0) = W8 m ρ c (Proc.devRef .tc main_v64_0)
      ∧ r.2.mem ((c.tc : Thread nD τ).loc main_v64_1) = W8 m ρ c (Proc.devRef .tc main_v64_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v64_0 (by decide)),
       h c _ (mem_uc main_v64_1 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c)⟩)

end Cert.KernelIdeal.Out

end
-- ==== Proof.GraphConv.lean ====
/-
  The two-layer graph convolution both programs compute, as one composition of whole-array host operations.

  From the edge list `e` (row 0 the sources, row 1 the destinations, 1 600 000 edges) each layer uses the edges with a
  self-loop appended per node: `s = src ++ (0 … 99 999)`, `d = dst ++ (0 … 99 999)`. The degree of a node is the number
  of entries of `d` naming it (a scatter-add of ones), `dis = (deg > 0 ? deg : 1) ^ (-1/2)`, and the weight of edge `k`
  is `dis[s k] · dis[d k]` (an index below zero is wrapped by the node count before the gather). One aggregation of a
  node-feature matrix `xw` is the scatter-add over the edges, into row `d k`, of row `s k` of `xw` times the edge's
  weight. The network is

      hidden = max (aggregate (x · W1) + b1, 0),   h = aggregate (hidden · W2) + b2,   logits = h · Wf + bf.

  The definitions below spell these stages with the reference program's own dimension records, so that the reference's
  composed term is this composition by unfolding.
-/
import proofs.«164294_j83013127897500_2_alg».proof.Proof.Gen.ReferenceIdeal

noncomputable section

namespace Cert.GraphConv

open Cert.ReferenceIdeal Cert.ReferenceIdeal.Gen Idealize.ShloMosaic

variable {F : FTy → Type} [FloatOps F]

/-- The sources with one self-loop per node appended. -/
def srcOf (e : (⟨S2x1600000, .i32⟩ : BufTy).Contents (Elt F)) : (⟨S1700000, .i32⟩ : BufTy).Contents (Elt F) :=
  concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0

/-- The destinations with one self-loop per node appended. -/
def dstOf (e : (⟨S2x1600000, .i32⟩ : BufTy).Contents (Elt F)) : (⟨S1700000, .i32⟩ : BufTy).Contents (Elt F) :=
  concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0

/-- An index below zero wrapped by the node count (what array indexing does before a gather). -/
def wrapOf (s : (⟨S1700000, .i32⟩ : BufTy).Contents (Elt F)) : (⟨S1700000, .i32⟩ : BufTy).Contents (Elt F) :=
  select (cmpi .slt s (broadcastInDim S1700000 ![] bcast_S_S1700000 (constantI S_ 32 0#32))) (addi s (broadcastInDim S1700000 ![] bcast_S_S1700000 (constantI S_ 32 100000#32))) s

/-- The degree of each node: a scatter-add of ones along the destinations. -/
def degOf (d : (⟨S1700000, .i32⟩ : BufTy).Contents (Elt F)) : (⟨S100000, .f32⟩ : BufTy).Contents (Elt F) :=
  Host.scatterAdd scatter_S100000_S1700000x1_S1700000_n_0_0_1 (broadcastInDim S100000 ![] bcast_S_S100000 (constant S_ .f32 0x00000000#32)) (broadcastInDim S1700000x1 ![0] bcast_S1700000_S1700000x1_0 d) (broadcastInDim S1700000 ![] bcast_S_S1700000 (constant S_ .f32 0x3F800000#32))

/-- `(deg > 0 ? deg : 1) ^ (-1/2)` per node. -/
def disOf (d : (⟨S1700000, .i32⟩ : BufTy).Contents (Elt F)) : (⟨S100000, .f32⟩ : BufTy).Contents (Elt F) :=
  Host.powf (select (cmpf (F := F) .ogt (degOf d) (broadcastInDim S100000 ![] bcast_S_S100000 (constant S_ .f32 0x00000000#32))) (degOf d) (broadcastInDim S100000 ![] bcast_S_S100000 (id (constant S_ .f32 0x3F800000#32)))) (broadcastInDim S100000 ![] bcast_S_S100000 (constant S_ .f32 0xBF000000#32))

/-- The weight of each edge: `dis` at its source times `dis` at its destination. -/
def normOf (s d : (⟨S1700000, .i32⟩ : BufTy).Contents (Elt F)) : (⟨S1700000, .f32⟩ : BufTy).Contents (Elt F) :=
  mulf (Host.gather gather_S100000_S1700000x1_S1700000_n_0_n_n_0_1_1 (disOf d) (broadcastInDim S1700000x1 ![0] bcast_S1700000_S1700000x1_0 (wrapOf s))) (Host.gather gather_S100000_S1700000x1_S1700000_n_0_n_n_0_1_1 (disOf d) (broadcastInDim S1700000x1 ![0] bcast_S1700000_S1700000x1_0 (wrapOf d)))

/-- One aggregation: the scatter-add, into row `d k`, of row `s k` of `xw` times the weight of edge `k`. -/
def aggOf (xw : (⟨S100000x128, .f32⟩ : BufTy).Contents (Elt F)) (nrm : (⟨S1700000, .f32⟩ : BufTy).Contents (Elt F)) (s d : (⟨S1700000, .i32⟩ : BufTy).Contents (Elt F)) : (⟨S100000x128, .f32⟩ : BufTy).Contents (Elt F) :=
  Host.scatterAdd scatter_S100000x128_S1700000x1_S1700000x128_1_0_0_1 (broadcastInDim S100000x128 ![] bcast_S_S100000x128 (constant S_ .f32 0x00000000#32)) (broadcastInDim S1700000x1 ![0] bcast_S1700000_S1700000x1_0 d) (mulf (Host.gather gather_S100000x128_S1700000x1_S1700000x128_1_0_n_n_0_1_1128 xw (broadcastInDim S1700000x1 ![0] bcast_S1700000_S1700000x1_0 (wrapOf s))) (broadcastInDim S1700000x128 ![0, 1] bcast_S1700000x1_S1700000x128_0_1 (broadcastInDim S1700000x1 ![0] bcast_S1700000_S1700000x1_0 nrm)))

/-- A bias vector added to every row. -/
def biasOf (b : (⟨S128, .f32⟩ : BufTy).Contents (Elt F)) : (⟨S100000x128, .f32⟩ : BufTy).Contents (Elt F) :=
  broadcastInDim S100000x128 ![0, 1] bcast_S1x128_S100000x128_0_1 (broadcastInDim S1x128 ![1] bcast_S128_S1x128_1 b)

/-- The hidden layer: `max (aggregate (x · W1) + b1, 0)`. -/
def hiddenOf (x : (⟨S100000x128, .f32⟩ : BufTy).Contents (Elt F)) (W1 : (⟨S128x128, .f32⟩ : BufTy).Contents (Elt F)) (b1 : (⟨S128, .f32⟩ : BufTy).Contents (Elt F)) (e : (⟨S2x1600000, .i32⟩ : BufTy).Contents (Elt F)) : (⟨S100000x128, .f32⟩ : BufTy).Contents (Elt F) :=
  maximumf (addf (aggOf (Host.dotGeneral dot_S100000x128_S128x128_S100000x128_1_0_0_1_n_n none x W1) (normOf (srcOf e) (dstOf e)) (srcOf e) (dstOf e)) (biasOf b1)) (broadcastInDim S100000x128 ![] bcast_S_S100000x128 (constant S_ .f32 0x00000000#32))

/-- The first result: `aggregate (hidden · W2) + b2`. -/
def hOf (x : (⟨S100000x128, .f32⟩ : BufTy).Contents (Elt F)) (W1 : (⟨S128x128, .f32⟩ : BufTy).Contents (Elt F)) (b1 : (⟨S128, .f32⟩ : BufTy).Contents (Elt F)) (W2 : (⟨S128x128, .f32⟩ : BufTy).Contents (Elt F)) (b2 : (⟨S128, .f32⟩ : BufTy).Contents (Elt F)) (e : (⟨S2x1600000, .i32⟩ : BufTy).Contents (Elt F)) : (⟨S100000x128, .f32⟩ : BufTy).Contents (Elt F) :=
  addf (aggOf (Host.dotGeneral dot_S100000x128_S128x128_S100000x128_1_0_0_1_n_n none (hiddenOf x W1 b1 e) W2) (normOf (srcOf e) (dstOf e)) (srcOf e) (dstOf e)) (biasOf b2)

/-- The second result: `h · Wf + bf`. -/
def logitsOf (h : (⟨S100000x128, .f32⟩ : BufTy).Contents (Elt F)) (Wf : (⟨S128x10, .f32⟩ : BufTy).Contents (Elt F)) (bf : (⟨S10, .f32⟩ : BufTy).Contents (Elt F)) : (⟨S100000x10, .f32⟩ : BufTy).Contents (Elt F) :=
  addf (Host.dotGeneral dot_S100000x128_S128x10_S100000x10_1_0_0_1_n_n none h Wf) (broadcastInDim S100000x10 ![0, 1] bcast_S1x10_S100000x10_0_1 (broadcastInDim S1x10 ![1] bcast_S10_S1x10_1 bf))

end Cert.GraphConv

end
-- ==== Proof.LibPlainProduct.lean ====
/-
  The plain matrix product `[m, k] × [k, n] → [m, n]` (dimension numbers: contract the left operand's axis 1 with the
  right operand's axis 0, no batch axis), read at an entry at the ideal values, for ANY record with those dimension
  numbers whatever its well-formedness proof: a `tpu.matmul` into the zero accumulator and the host's `dot_general` are
  both `Σ_c A(a, c) · B(c, b)` over the literal range `Fin k`. General lemmas in the library's style
  (Lib/StackMember.lean states the same for the record `DotDims.plain`).
-/
import Idealize.ShloMosaic.Lib.ValueIdx
import Idealize.ShloMosaic.PureOps.Ideal.Laws

noncomputable section

open scoped BigOperators

namespace Idealize.ShloMosaic.PlainProduct

open Idealize.ShloMosaic Idealize.ShloMosaic.ValueIdx

variable {m k n : Nat} {φ₁ φ₂ : FTy}

/-- The plain product's record, from its well-formedness. -/
abbrev rec2 (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

/-- The left operand's index at output entry `(a, b)` and contraction coordinate `c` is `(a, c)`. -/
theorem lhsIdx_eq (w : DotDims.WF ⟨2, ![m, k]⟩ ⟨2, ![k, n]⟩ ⟨2, ![m, n]⟩ [1] [0] [0] [1] [] []) (a : Fin m) (b : Fin n) (c : Fin k) :
    (rec2 w).lhsIdx (ix2 a b) ((contrEquiv1 (rec2 w) k rfl rfl).symm c) = ix2 a c := by
  have c2 := contrEquiv1_symm_val (rec2 w) k rfl rfl c
  funext ax; apply Fin.ext
  match ax with
  | ⟨0, _⟩ => simp [DotDims.lhsIdx]; rfl
  | ⟨1, _⟩ => simp [DotDims.lhsIdx]; exact c2

/-- The right operand's index there is `(c, b)`. -/
theorem rhsIdx_eq (w : DotDims.WF ⟨2, ![m, k]⟩ ⟨2, ![k, n]⟩ ⟨2, ![m, n]⟩ [1] [0] [0] [1] [] []) (a : Fin m) (b : Fin n) (c : Fin k) :
    (rec2 w).rhsIdx (ix2 a b) ((contrEquiv1 (rec2 w) k rfl rfl).symm c) = ix2 c b := by
  have c2 := contrEquiv1_symm_val (rec2 w) k rfl rfl c
  funext ax; apply Fin.ext
  match ax with
  | ⟨0, _⟩ => simp [DotDims.rhsIdx]; exact c2
  | ⟨1, _⟩ => simp [DotDims.rhsIdx]; rfl

/-- A `tpu.matmul` with these dimension numbers into the zero accumulator, at entry `(a, b)`. -/
theorem matmul_zero_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (rec2 w) prec A B (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply, ← Equiv.sum_comp (contrEquiv1 (rec2 w) k rfl rfl).symm]
  refine Finset.sum_congr rfl fun c _ => ?_
  rw [lhsIdx_eq, rhsIdx_eq]

/-- The host's `dot_general` with these dimension numbers, at entry `(a, b)`. -/
theorem dotGeneral_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (rec2 w) prec A B (ix2 a b) = ∑ c : Fin k, A (ix2 a c) * B (ix2 c b) := by
  show FloatOps.dotGeneral _ prec _ A B (ix2 a b) = _
  rw [Ideal.dotGeneral_apply, ← Equiv.sum_comp (contrEquiv1 (rec2 w) k rfl rfl).symm]
  refine Finset.sum_congr rfl fun c _ => ?_
  rw [lhsIdx_eq, rhsIdx_eq]

end Idealize.ShloMosaic.PlainProduct

end
-- ==== Proof.Region0.lean ====
/-
  The first region: a row-tiled matrix product. Grid point `t` (of 10) reads rows `10000·t … 10000·t + 9999` of the
  left operand and the whole right operand, and writes the same rows of the result: entry `(r, q)` of the block is
  `Σ_k X(10000·t + r, k) · W(k, q)` (the narrowing to a 16-bit float before and after the product is the identity on
  the extended reals). The ten row blocks tile the result, so the array ends holding the host's whole product of the two
  arrays as the region finds them.
-/
import proofs.«164294_j83013127897500_2_alg».proof.Proof.Gen.KernelIdeal.Frame
import proofs.«164294_j83013127897500_2_alg».proof.Proof.Gen.ReferenceIdeal
import proofs.«164294_j83013127897500_2_alg».proof.Proof.LibPlainProduct
import Idealize.ShloMosaic.Lib.Pipeline.Value
import Idealize.ShloMosaic.Lib.ValueIdx

set_option maxRecDepth 16384

noncomputable section

open scoped BigOperators

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The host's product of a 100000×128 by a 128×128 matrix. -/
abbrev prodOf (X : FVec Ideal S100000x128 .f32) (W : FVec Ideal S128x128 .f32) : FVec Ideal S100000x128 .f32 :=
  Host.dotGeneral Cert.ReferenceIdeal.dot_S100000x128_S128x128_S100000x128_1_0_0_1_n_n none X W

/-- Its entry `i`: the sum over the contracted coordinate. -/
theorem prodOf_entry (X : FVec Ideal S100000x128 .f32) (W : FVec Ideal S128x128 .f32) (i : S100000x128.Idx) :
    prodOf X W i = ∑ k : Fin 128, X (ix2 (i 0) k) * W (ix2 k (i 1)) := by
  obtain ⟨p, q, rfl⟩ : ∃ (p : Fin 100000) (q : Fin 128), i = ix2 p q := ⟨i 0, i 1, eq_ix2 i⟩
  exact PlainProduct.dotGeneral_apply (φ₁ := .f32) (φ₂ := .f32) Cert.ReferenceIdeal.dot_S100000x128_S128x128_S100000x128_1_0_0_1_n_n.wf none X W p q

/-- The body's stored value at entry `(p, q)` of the block: the product's sum over the blocks it loaded. -/
theorem pay_apply (x0 : Vec Ideal S10000x128 .f32) (x1 : Vec Ideal S128x128 .f32) (p : Fin 10000) (q : Fin 128) :
    k0_pay1 x0 x1 (ix2 p q) = ∑ k : Fin 128, x0 (ix2 p k) * x1 (ix2 k q) := by
  unfold k0_pay1
  exact PlainProduct.matmul_zero_apply (φ₁ := .bf16) (φ₂ := .bf16) dot_S10000x128_S128x128_S10000x128_1_0_0_1_n_n.wf none x0 x1 p q

theorem pay_entry (x0 : Vec Ideal S10000x128 .f32) (x1 : Vec Ideal S128x128 .f32) (j : S10000x128.Idx) :
    k0_pay1 x0 x1 j = ∑ k : Fin 128, x0 (ix2 (j 0) k) * x1 (ix2 k (j 1)) := by
  obtain ⟨p, q, rfl⟩ : ∃ (p : Fin 10000) (q : Fin 128), j = ix2 p q := ⟨j 0, j 1, eq_ix2 j⟩
  exact pay_apply x0 x1 p q

/-- The printed index maps over the grid: the left operand's and the result's row blocks move together with the
    point, the right operand's block and every column block stay at 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the product of the two arrays as the region finds them. -/
theorem flushed_eq (c : Dev nD) (t : Fin cfg0.N) :
    (dat0 V c).flushed 2 t = ((cfg0.win 2).blk t).view.read (Elt Ideal) (prodOf (V c main_arg0) (V c main_arg1)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x128) hz]
  obtain ⟨e0, e1, e2, e3, e4, e5⟩ := idx_facts t
  funext j
  refine (pay_entry _ _ j).trans ?_
  refine Eq.trans ?_ (prodOf_entry _ _ _).symm
  refine Finset.sum_congr rfl fun k _ => ?_
  have h0 : iblk0 V c 0 t (ix2 (j 0) k) = V c main_arg0 (ix2 ((((cfg0.win 2).blk t).view.emb j) 0) k) := by
    unfold iblk0
    rw [View.read_apply]
    refine congrArg (V c main_arg0) (funext fun a => Fin.ext ?_)
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 128 + 1 * k.val = k.val; omega
  have h1 : iblk0 V c 1 t (ix2 k (j 1)) = V c main_arg1 (ix2 k ((((cfg0.win 2).blk t).view.emb j) 1)) := by
    unfold iblk0
    rw [View.read_apply]
    refine congrArg (V c main_arg1) (funext fun a => Fin.ext ?_)
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  exact congrArg₂ (· * ·) h0 h1

/-- An index of the result is in point `t`'s block iff each coordinate is in the block's range on its axis. -/
theorem mem_blk (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v31).slice (win0_2.rect t)).set ↔ _
  rw [View.set_slice_whole, Rect.mem_set_unit]
  exact Iff.rfl

/-- Row `r` of the result lies in the block of point `r / 10000`. -/
theorem cover (i : S100000x128.Idx) : ∃ t : Fin cfg0.N, (cfg0.win 2).flush t = true ∧ i ∈ ((cfg0.win 2).blk t).view.set := by
  have hi0 : (i 0).val < 100000 := idx2_lt0 i
  have hi1 : (i 1).val < 128 := idx2_lt1 i
  refine ⟨⟨(i 0).val / 10000, by rw [show cfg0.N = 10 from N_0]; omega⟩, flush0_2 _, ?_⟩
  rw [mem_blk]
  obtain ⟨e0, e1, e2, e3, e4, e5⟩ := idx_facts ⟨(i 0).val / 10000, by rw [show cfg0.N = 10 from N_0]; omega⟩
  intro a
  match a with
  | ⟨0, _⟩ => show win0_2.index _ (0 : Fin 2) * 10000 ≤ (i 0).val ∧ (i 0).val < win0_2.index _ (0 : Fin 2) * 10000 + 10000; rw [e4]; show (i 0).val / 10000 * 10000 ≤ (i 0).val ∧ (i 0).val < (i 0).val / 10000 * 10000 + 10000; omega
  | ⟨1, _⟩ => show win0_2.index _ (1 : Fin 2) * 128 ≤ (i 1).val ∧ (i 1).val < win0_2.index _ (1 : Fin 2) * 128 + 128; rw [e5]; omega

/-- The result array after the region: the whole product of the two arrays as the region finds them. -/
theorem final (c : Dev nD) : (dat0 V c).arrAt 2 cfg0.N = prodOf (V c main_arg0) (V c main_arg1) :=
  (dat0 V c).arrAt_eq_of_cover 2 (prodOf (V c main_arg0) (V c main_arg1)) (fun t _ => flushed_eq V c t) cover

end Cert.KernelIdeal.Region0

end
-- ==== Proof.LibBroadcastTo.lean ====
/-
  A vector broadcast of a row or of a column to a matrix, read at an entry. General in the extents.

  * a row `[1, n]` broadcast down `m` rows: entry `(p, k)` is the row's entry `(0, k)`;
  * a column `[m, 1]` broadcast across `n` columns: entry `(p, k)` is the column's entry `(p, 0)`.
-/
import Idealize.ShloMosaic.Lib.Pipeline.Value
import Idealize.ShloMosaic.Lib.ValueIdx

noncomputable section

namespace Cert.BroadcastTo

open Idealize.ShloMosaic Idealize.ShloMosaic.ValueIdx

variable {α : Type} {m n : Nat}

/-- A row broadcast down the rows keeps the column coordinate. -/
theorem row_apply (x : (⟨2, ![1, n]⟩ : Shape).Idx → α) (h : (⟨2, ![1, n]⟩ : Shape).Broadcasts ⟨2, ![m, n]⟩)
    (p : Fin m) (k : Fin n) : broadcastTo ⟨2, ![m, n]⟩ x h (ix2 p k) = x (ix2 0 k) :=
  broadcastTo_apply x h (ix2 p k) (ix2 0 k) (fun a => match a with
    | ⟨0, _⟩ => by show (0 : ℕ) = if (1 : ℕ) = 1 then 0 else _; rw [if_pos rfl]
    | ⟨1, _⟩ => by
      show k.val = if n = 1 then 0 else k.val
      split
      · have := k.isLt; omega
      · rfl)

/-- A column broadcast across the columns keeps the row coordinate. -/
theorem col_apply (x : (⟨2, ![m, 1]⟩ : Shape).Idx → α) (h : (⟨2, ![m, 1]⟩ : Shape).Broadcasts ⟨2, ![m, n]⟩)
    (p : Fin m) (k : Fin n) : broadcastTo ⟨2, ![m, n]⟩ x h (ix2 p k) = x (ix2 p 0) :=
  broadcastTo_apply x h (ix2 p k) (ix2 p 0) (fun a => match a with
    | ⟨0, _⟩ => by
      show p.val = if m = 1 then 0 else p.val
      split
      · have := p.isLt; omega
      · rfl
    | ⟨1, _⟩ => by show (0 : ℕ) = if (1 : ℕ) = 1 then 0 else _; rw [if_pos rfl])

end Cert.BroadcastTo

end
-- ==== Proof.LibHostRead.lean ====
/-
  The host's whole-array operations read at one entry, general in the extents.

  * a vector laid out as a one-row matrix, a row repeated down the rows, a vector laid out as a one-column matrix, a
    column repeated across the columns, and a rank-zero array repeated everywhere: each reads ONE element of its operand;
  * the sum of a matrix over its column axis from an initial value: at row `p` the initial value plus
    `∑ k, x (p, k)`;
  * the fold of `max` over the column axis from the word `-inf`: at row `p` the fold over `k` of `x (p, k)`; the
    word `-inf` is the least extended real, so a further `max` with it changes nothing.
-/
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.Reduce

noncomputable section

open scoped BigOperators

namespace Cert.HostRead

open Idealize.ShloMosaic Idealize.ShloMosaic.ValueIdx

variable {α : Type} {m n : Nat}

/-! ## Layouts -/

/-- A vector as a one-row matrix: entry `(u, k)` is the vector's entry `k`. -/
theorem vec_row_apply (b : (⟨1, ![n]⟩ : Shape).Idx → α) (h : (⟨1, ![n]⟩ : Shape).BroadcastsInDim ⟨2, ![1, n]⟩ ![1])
    (u : Fin 1) (k : Fin n) : broadcastInDim ⟨2, ![1, n]⟩ ![1] h b (ix2 u k) = b (ix1 k) :=
  broadcastInDim_apply _ h b (ix2 u k) (ix1 k) (fun a => match a with
    | ⟨0, _⟩ => by
      show k.val = if n = 1 then 0 else k.val
      split
      · have := k.isLt; omega
      · rfl)

/-- A one-row matrix repeated down the rows: entry `(p, k)` is the row's entry `(0, k)`. -/
theorem row_rows_apply (x : (⟨2, ![1, n]⟩ : Shape).Idx → α) (h : (⟨2, ![1, n]⟩ : Shape).BroadcastsInDim ⟨2, ![m, n]⟩ ![0, 1])
    (p : Fin m) (k : Fin n) : broadcastInDim ⟨2, ![m, n]⟩ ![0, 1] h x (ix2 p k) = x (ix2 0 k) :=
  broadcastInDim_apply _ h x (ix2 p k) (ix2 0 k) (fun a => match a with
    | ⟨0, _⟩ => by show (0 : ℕ) = if (1 : ℕ) = 1 then 0 else _; rw [if_pos rfl]
    | ⟨1, _⟩ => by
      show k.val = if n = 1 then 0 else k.val
      split
      · have := k.isLt; omega
      · rfl)

/-- A vector as a one-column matrix: entry `(p, u)` is the vector's entry `p`. -/
theorem vec_col_apply (x : (⟨1, ![m]⟩ : Shape).Idx → α) (h : (⟨1, ![m]⟩ : Shape).BroadcastsInDim ⟨2, ![m, 1]⟩ ![0])
    (p : Fin m) (u : Fin 1) : broadcastInDim ⟨2, ![m, 1]⟩ ![0] h x (ix2 p u) = x (ix1 p) :=
  broadcastInDim_apply _ h x (ix2 p u) (ix1 p) (fun a => match a with
    | ⟨0, _⟩ => by
      show p.val = if m = 1 then 0 else p.val
      split
      · have := p.isLt; omega
      · rfl)

/-- A one-column matrix repeated across the columns: entry `(p, k)` is the column's entry `(p, 0)`. -/
theorem col_cols_apply (x : (⟨2, ![m, 1]⟩ : Shape).Idx → α) (h : (⟨2, ![m, 1]⟩ : Shape).BroadcastsInDim ⟨2, ![m, n]⟩ ![0, 1])
    (p : Fin m) (k : Fin n) : broadcastInDim ⟨2, ![m, n]⟩ ![0, 1] h x (ix2 p k) = x (ix2 p 0) :=
  broadcastInDim_apply _ h x (ix2 p k) (ix2 p 0) (fun a => match a with
    | ⟨0, _⟩ => by
      show p.val = if m = 1 then 0 else p.val
      split
      · have := p.isLt; omega
      · rfl
    | ⟨1, _⟩ => by show (0 : ℕ) = if (1 : ℕ) = 1 then 0 else _; rw [if_pos rfl])

/-- A rank-zero array repeated everywhere reads its one element. -/
theorem scalar_apply (t : Shape) (x : (⟨0, ![]⟩ : Shape).Idx → α) (h : (⟨0, ![]⟩ : Shape).BroadcastsInDim t ![]) (j : t.Idx) :
    broadcastInDim t ![] h x j = x (fun a => a.elim0) :=
  broadcastInDim_apply _ h x j (fun a => a.elim0) (fun a => a.elim0)

/-- A float word repeated everywhere, over the extended reals. -/
theorem word_apply (t : Shape) (w : BitVec 32) (h : (⟨0, ![]⟩ : Shape).BroadcastsInDim t ![]) (j : t.Idx) :
    broadcastInDim t ![] h (constant (F := Ideal) (⟨0, ![]⟩ : Shape) .f32 w) j = Ideal.ofBits .f32 w :=
  scalar_apply t _ h j

/-! ## Reductions over the column axis -/

/-- The row index `p` with column `k` put back is `(p, k)`. -/
theorem lift_row (h : (⟨2, ![m, n]⟩ : Shape).Reduces [1] (⟨1, ![m]⟩ : Shape)) (p : Fin m) (k : Fin n) :
    h.lift (ix1 p) k = ix2 p k := by
  funext c; apply Fin.ext
  fin_cases c <;> rfl

/-- The host's sum over the columns, at row `p`: the initial value plus the sum of the row. -/
theorem reduceAdd_row_apply (x : (⟨2, ![m, n]⟩ : Shape).Idx → EReal) (init : (⟨0, ![]⟩ : Shape).Idx → EReal)
    (h' : (⟨2, ![m, n]⟩ : Shape).ReducesTo [1] (⟨1, ![m]⟩ : Shape)) (hu : 0 < (⟨0, ![]⟩ : Shape).numel) (p : Fin m) :
    Host.reduceAdd (F := Ideal) (φ := .f32) x init h' hu (ix1 p) = init (Shape.Idx.first hu) + ∑ k : Fin n, x (ix2 p k) := by
  have hr : (⟨2, ![m, n]⟩ : Shape).Reduces [1] (⟨1, ![m]⟩ : Shape) := ⟨h'.1, Nat.one_pos, h'.2⟩
  simp only [Host.reduceAdd, Ideal.hostReduceAdd_def]
  rw [Ideal.hostReduceAdd_single h' hr]
  refine congrArg (_ + ·) (Finset.sum_congr rfl fun k _ => ?_)
  exact congrArg x (lift_row hr p k)

/-- The host's sum over the columns from the zero word, at row `p`: the sum of the row. -/
theorem reduceAdd_row_zero_apply (x : (⟨2, ![m, n]⟩ : Shape).Idx → EReal)
    (h' : (⟨2, ![m, n]⟩ : Shape).ReducesTo [1] (⟨1, ![m]⟩ : Shape)) (hu : 0 < (⟨0, ![]⟩ : Shape).numel) (p : Fin m) :
    Host.reduceAdd (F := Ideal) (φ := .f32) x (constant (F := Ideal) (⟨0, ![]⟩ : Shape) .f32 0x00000000#32) h' hu (ix1 p)
      = ∑ k : Fin n, x (ix2 p k) := by
  rw [reduceAdd_row_apply]
  show Ideal.ofBits .f32 0x00000000#32 + _ = _
  rw [Ideal.ofBits_zero_f32, zero_add]

/-- The word `-inf` is the least extended real. -/
theorem max_negInf (y : EReal) : max (Ideal.ofBits .f32 0xFF800000#32) y = y := by
  simp [Ideal.ofBits, Ideal.ieee]

/-- The host's fold of `max` over the columns from the word `-inf`, at row `p`: the fold over the row. -/
theorem reduceMax_row_apply (x : FVec Ideal ⟨2, ![m, n]⟩ .f32)
    (h' : (⟨2, ![m, n]⟩ : Shape).ReducesTo [1] (⟨1, ![m]⟩ : Shape)) (hu : 0 < (⟨0, ![]⟩ : Shape).numel) (p : Fin m) :
    Host.reduce (FloatOps.maximumf (F := Ideal) (φ := .f32)) x (constant (F := Ideal) (⟨0, ![]⟩ : Shape) .f32 0xFF800000#32) h' hu (ix1 p)
      = (Finset.univ : Finset (Fin n)).fold (max : EReal → EReal → EReal) (Ideal.ofBits .f32 0xFF800000#32 : EReal)
          (fun k => (x (ix2 p k) : EReal)) := by
  have hr : (⟨2, ![m, n]⟩ : Shape).Reduces [1] (⟨1, ![m]⟩ : Shape) := ⟨h'.1, Nat.one_pos, h'.2⟩
  refine (Host.reduce_eq_fold_single FloatOps.maximumf x _ h' hr hu (ix1 p)).trans ?_
  have hf : (x ∘ hr.lift (ix1 p)) = fun k : Fin n => x (ix2 p k) := funext fun k => congrArg x (lift_row hr p k)
  exact congrArg (fun f => Finset.fold max (Ideal.ofBits .f32 0xFF800000#32) f (Finset.univ : Finset (Fin n))) hf

/-- One more `max` with the word `-inf` repeated along a vector: at `p` the other operand's entry. -/
theorem maxWord_apply (r : FVec Ideal ⟨1, ![m]⟩ .f32) (h : (⟨0, ![]⟩ : Shape).BroadcastsInDim ⟨1, ![m]⟩ ![]) (p : Fin m) (v : EReal)
    (hr : r (ix1 p) = v) :
    maximumf (broadcastInDim ⟨1, ![m]⟩ ![] h (constant (F := Ideal) (⟨0, ![]⟩ : Shape) .f32 0xFF800000#32)) r (ix1 p) = v := by
  refine (congrArg₂ (max : EReal → EReal → EReal) (word_apply ⟨1, ![m]⟩ _ h (ix1 p)) hr).trans ?_
  exact max_negInf v

/-! ## Pointwise host operations -/

theorem hostLog_apply {s : Shape} (y : FVec Ideal s .f32) (i : s.Idx) : Host.log (F := Ideal) y i = Ideal.log (y i) := rfl
theorem hostExp_apply {s : Shape} (y : FVec Ideal s .f32) (i : s.Idx) : Host.exp (F := Ideal) y i = Ideal.exp (y i) := rfl
theorem hostRsqrt_apply {s : Shape} (y : FVec Ideal s .f32) (i : s.Idx) : Host.rsqrt (F := Ideal) y i = Ideal.rsqrt (y i) := rfl
theorem hostDivf_apply {s : Shape} (x y : FVec Ideal s .f32) (i : s.Idx) : Host.divf (F := Ideal) x y i = Ideal.div (x i) (y i) := rfl
theorem addf_apply {s : Shape} (x y : FVec Ideal s .f32) (i : s.Idx) : addf x y i = x i + y i := rfl
theorem subf_apply {s : Shape} (x y : FVec Ideal s .f32) (i : s.Idx) : subf x y i = x i - y i := rfl
theorem mulf_apply {s : Shape} (x y : FVec Ideal s .f32) (i : s.Idx) : mulf x y i = x i * y i := rfl
theorem maximumf_apply {s : Shape} (x y : FVec Ideal s .f32) (i : s.Idx) : maximumf x y i = max (x i) (y i) := rfl

end Cert.HostRead

end
-- ==== Proof.Region1.lean ====
/-
  The second region: bias, rectifier and a row-tiled matrix product in one body. Grid point `t` (of 10) reads rows
  `10000·t … 10000·t + 9999` of the aggregated features `A`, the one-row bias `b` and the whole weight matrix `W`, and
  writes the same rows of the result: entry `(r, q)` of the block is `Σ_k max (A(10000·t + r, k) + b(0, k), 0) · W(k, q)`.
  The ten row blocks tile the result, so the array ends holding the host's product of `max (A + rows of b, 0)` with `W`.
-/
import proofs.«164294_j83013127897500_2_alg».proof.Proof.Gen.KernelIdeal.Frame
import proofs.«164294_j83013127897500_2_alg».proof.Proof.Gen.ReferenceIdeal
import proofs.«164294_j83013127897500_2_alg».proof.Proof.Region0
import proofs.«164294_j83013127897500_2_alg».proof.Proof.LibBroadcastTo
import proofs.«164294_j83013127897500_2_alg».proof.Proof.LibHostRead

set_option maxRecDepth 16384

noncomputable section

open scoped BigOperators

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat)
open Cert.KernelIdeal.Region0 (hz prodOf prodOf_entry)

variable (V : (c : Dev nD) → (b : Ref sig .tc) → Buf (Elt Ideal) ((c : Thread nD τ).loc b))

/-- A one-row matrix repeated down the 100000 rows. -/
abbrev rowsOf (b : FVec Ideal S1x128 .f32) : FVec Ideal S100000x128 .f32 :=
  broadcastInDim Cert.ReferenceIdeal.S100000x128 ![0, 1] Cert.ReferenceIdeal.Gen.bcast_S1x128_S100000x128_0_1 b

/-- The zero matrix the rectifier compares with. -/
abbrev zerosOf : FVec Ideal S100000x128 .f32 :=
  broadcastInDim Cert.ReferenceIdeal.S100000x128 ![] Cert.ReferenceIdeal.Gen.bcast_S_S100000x128 (constant (F := Ideal) Cert.ReferenceIdeal.S_ .f32 0x00000000#32)

/-- Bias and rectifier, whole-array: `max (A + rows of b, 0)`. -/
abbrev actOf (A : FVec Ideal S100000x128 .f32) (b : FVec Ideal S1x128 .f32) : FVec Ideal S100000x128 .f32 :=
  maximumf (addf A (rowsOf b)) zerosOf

/-- One entry of it. -/
theorem actOf_apply (A : FVec Ideal S100000x128 .f32) (b : FVec Ideal S1x128 .f32) (r : Fin 100000) (k : Fin 128) :
    actOf A b (ix2 r k) = max (A (ix2 r k) + b (ix2 0 k)) (Ideal.ofBits .f32 0x00000000#32) := by
  show max (A (ix2 r k) + rowsOf b (ix2 r k)) (zerosOf (ix2 r k)) = _
  rw [show rowsOf b (ix2 r k) = b (ix2 0 k) from Cert.HostRead.row_rows_apply b _ r k,
    show zerosOf (ix2 r k) = Ideal.ofBits .f32 0x00000000#32 from Cert.HostRead.word_apply _ _ _ _]

/-- The body's bias and rectifier at entry `(p, k)` of the block. -/
theorem pre_apply (x0 : Vec Ideal S10000x128 .f32) (x1 : Vec Ideal S1x128 .f32) (p : Fin 10000) (k : Fin 128) :
    maximumf (addf (shapeCast S10000x128 x0 shapeCasts_S10000x128_S10000x128)
        (broadcastTo S10000x128 (shapeCast S1x128 x1 shapeCasts_S1x128_S1x128) broadcasts_S1x128_S10000x128))
      (broadcast S10000x128 (Scalar.ofBits .f32 0x00000000#32 : Ideal .f32)) (ix2 p k)
      = max (x0 (ix2 p k) + x1 (ix2 0 k)) (Ideal.ofBits .f32 0x00000000#32) := by
  rw [shapeCast_self, shapeCast_self]
  show max (x0 (ix2 p k) + broadcastTo S10000x128 x1 broadcasts_S1x128_S10000x128 (ix2 p k)) _ = _
  rw [Cert.BroadcastTo.row_apply]
  rfl

/-- The body's stored value at entry `(p, q)` of the block. -/
theorem pay_apply (x0 : Vec Ideal S10000x128 .f32) (x1 : Vec Ideal S1x128 .f32) (x2 : Vec Ideal S128x128 .f32) (p : Fin 10000) (q : Fin 128) :
    k1_pay1 x0 x1 x2 (ix2 p q) = ∑ k : Fin 128, max (x0 (ix2 p k) + x1 (ix2 0 k)) (Ideal.ofBits .f32 0x00000000#32) * x2 (ix2 k q) := by
  unfold k1_pay1
  refine (PlainProduct.matmul_zero_apply (φ₁ := .bf16) (φ₂ := .bf16) dot_S10000x128_S128x128_S10000x128_1_0_0_1_n_n.wf none _ x2 p q).trans ?_
  refine Finset.sum_congr rfl fun k _ => ?_
  exact congrArg (· * x2 (ix2 k q)) (pre_apply x0 x1 p k)

theorem pay_entry (x0 : Vec Ideal S10000x128 .f32) (x1 : Vec Ideal S1x128 .f32) (x2 : Vec Ideal S128x128 .f32) (j : S10000x128.Idx) :
    k1_pay1 x0 x1 x2 j = ∑ k : Fin 128, max (x0 (ix2 (j 0) k) + x1 (ix2 0 k)) (Ideal.ofBits .f32 0x00000000#32) * x2 (ix2 k (j 1)) := by
  obtain ⟨p, q, rfl⟩ : ∃ (p : Fin 10000) (q : Fin 128), j = ix2 p q := ⟨j 0, j 1, eq_ix2 j⟩
  exact pay_apply x0 x1 x2 p q

/-- The whole-array result the region is to leave. -/
abbrev resultOf (A : FVec Ideal S100000x128 .f32) (b : FVec Ideal S1x128 .f32) (W : FVec Ideal S128x128 .f32) : FVec Ideal S100000x128 .f32 :=
  prodOf (actOf A b) W

theorem resultOf_entry (A : FVec Ideal S100000x128 .f32) (b : FVec Ideal S1x128 .f32) (W : FVec Ideal S128x128 .f32) (i : S100000x128.Idx) :
    resultOf A b W i = ∑ k : Fin 128, max (A (ix2 (i 0) k) + b (ix2 0 k)) (Ideal.ofBits .f32 0x00000000#32) * W (ix2 k (i 1)) := by
  refine (prodOf_entry _ _ i).trans (Finset.sum_congr rfl fun k _ => ?_)
  exact congrArg (· * W (ix2 k (i 1))) (actOf_apply A b (i 0) k)

/-- The printed index maps over the grid. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point `t` writes back is block `t` of the whole-array result of the arrays as the region finds them. -/
theorem flushed_eq (c : Dev nD) (t : Fin cfg1.N) :
    (dat1 V c).flushed 3 t = ((cfg1.win 3).blk t).view.read (Elt Ideal) (resultOf (V c main_v45) (V c main_v46) (V c main_arg3)) := by
  show (cfg1.win 3).cut (grid1.coords t) ((dat1 V c).after 3 t) = _
  rw [after1_3]
  unfold out1_3
  rw [View.canon_unit_zero hz]
  simp only [View.ld_unit_zero (S := S10000x128) hz, View.ld_unit_zero (S := S1x128) hz, View.ld_unit_zero (S := S128x128) hz]
  obtain ⟨e0, e1, e2, e3, e4, e5, e6, e7⟩ := idx_facts t
  funext j
  refine (pay_entry _ _ _ j).trans ?_
  refine Eq.trans ?_ (resultOf_entry _ _ _ _).symm
  refine Finset.sum_congr rfl fun k _ => ?_
  have h0 : iblk1 V c 0 t (ix2 (j 0) k) = V c main_v45 (ix2 ((((cfg1.win 3).blk t).view.emb j) 0) k) := by
    unfold iblk1
    rw [View.read_apply]
    refine congrArg (V c main_v45) (funext fun a => Fin.ext ?_)
    match a with
    | ⟨0, _⟩ => show win1_0.index t (0 : Fin 2) * 10000 + 1 * (j 0).val = win1_3.index t (0 : Fin 2) * 10000 + 1 * (j 0).val; omega
    | ⟨1, _⟩ => show win1_0.index t (1 : Fin 2) * 128 + 1 * k.val = k.val; omega
  have h1 : iblk1 V c 1 t (ix2 0 k) = V c main_v46 (ix2 0 k) := by
    unfold iblk1
    rw [View.read_apply]
    refine congrArg (V c main_v46) (funext fun a => Fin.ext ?_)
    match a with
    | ⟨0, _⟩ => show win1_1.index t (0 : Fin 2) * 1 + 1 * 0 = 0; omega
    | ⟨1, _⟩ => show win1_1.index t (1 : Fin 2) * 128 + 1 * k.val = k.val; omega
  have h2 : iblk1 V c 2 t (ix2 k (j 1)) = V c main_arg3 (ix2 k ((((cfg1.win 3).blk t).view.emb j) 1)) := by
    unfold iblk1
    rw [View.read_apply]
    refine congrArg (V c main_arg3) (funext fun a => Fin.ext ?_)
    match a with
    | ⟨0, _⟩ => show win1_2.index t (0 : Fin 2) * 128 + 1 * k.val = k.val; omega
    | ⟨1, _⟩ => show win1_2.index t (1 : Fin 2) * 128 + 1 * (j 1).val = win1_3.index t (1 : Fin 2) * 128 + 1 * (j 1).val; omega
  rw [h0, h1, h2]

theorem mem_blk (t : Fin cfg1.N) (i : S100000x128.Idx) :
    i ∈ ((cfg1.win 3).blk t).view.set ↔ ∀ a : Fin 2, win1_3.index t a * S10000x128.size a ≤ (i a).val ∧ (i a).val < win1_3.index t a * S10000x128.size a + S10000x128.size a := by
  show i ∈ ((View.whole main_v47).slice (win1_3.rect t)).set ↔ _
  rw [View.set_slice_whole, Rect.mem_set_unit]
  exact Iff.rfl

/-- Row `r` of the result lies in the block of point `r / 10000`. -/
theorem cover (i : S100000x128.Idx) : ∃ t : Fin cfg1.N, (cfg1.win 3).flush t = true ∧ i ∈ ((cfg1.win 3).blk t).view.set := by
  have hi0 : (i 0).val < 100000 := idx2_lt0 i
  have hi1 : (i 1).val < 128 := idx2_lt1 i
  refine ⟨⟨(i 0).val / 10000, by rw [show cfg1.N = 10 from N_1]; omega⟩, flush1_3 _, ?_⟩
  rw [mem_blk]
  obtain ⟨e0, e1, e2, e3, e4, e5, e6, e7⟩ := idx_facts ⟨(i 0).val / 10000, by rw [show cfg1.N = 10 from N_1]; omega⟩
  intro a
  match a with
  | ⟨0, _⟩ => show win1_3.index _ (0 : Fin 2) * 10000 ≤ (i 0).val ∧ (i 0).val < win1_3.index _ (0 : Fin 2) * 10000 + 10000; rw [e6]; show (i 0).val / 10000 * 10000 ≤ (i 0).val ∧ (i 0).val < (i 0).val / 10000 * 10000 + 10000; omega
  | ⟨1, _⟩ => show win1_3.index _ (1 : Fin 2) * 128 ≤ (i 1).val ∧ (i 1).val < win1_3.index _ (1 : Fin 2) * 128 + 128; rw [e7]; omega

/-- The result array after the region. -/
theorem final (c : Dev nD) : (dat1 V c).arrAt 3 cfg1.N = resultOf (V c main_v45) (V c main_v46) (V c main_arg3) :=
  (dat1 V c).arrAt_eq_of_cover 3 (resultOf (V c main_v45) (V c main_v46) (V c main_arg3)) (fun t _ => flushed_eq V c t) cover

end Cert.KernelIdeal.Region1

end
-- ==== Proof.Region2.lean ====
/-
  The third region: the second layer's bias and the classifier head in one body, two results. Grid point `t` (of 20)
  reads rows `5000·t … 5000·t + 4999` of the aggregated features `A`, the one-row bias `b`, the whole head matrix `Wf` and
  the one-row head bias `bf`. It writes the same rows of `h = A + rows of b` — entry `(r, k)` is `A(5000·t + r, k) + b(0, k)` —
  and of the logits — entry `(r, q)` is `Σ_k (A(5000·t + r, k) + b(0, k)) · Wf(k, q) + bf(0, q)`. The twenty row blocks tile
  both results, so the arrays end holding `A + rows of b` and the host's product of that with `Wf` plus the rows of `bf`.
-/
import proofs.«164294_j83013127897500_2_alg».proof.Proof.Gen.KernelIdeal.Frame
import proofs.«164294_j83013127897500_2_alg».proof.Proof.Gen.ReferenceIdeal
import proofs.«164294_j83013127897500_2_alg».proof.Proof.Region1
import proofs.«164294_j83013127897500_2_alg».proof.Proof.LibBroadcastTo
import proofs.«164294_j83013127897500_2_alg».proof.Proof.LibHostRead

set_option maxRecDepth 16384

noncomputable section

open scoped BigOperators

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat)
open Cert.KernelIdeal.Region0 (hz)
open Cert.KernelIdeal.Region1 (rowsOf)

variable (V : (c : Dev nD) → (b : Ref sig .tc) → Buf (Elt Ideal) ((c : Thread nD τ).loc b))

/-! ## The first result: the features plus the bias row -/

/-- `A + rows of b`, whole-array. -/
abbrev biasedOf (A : FVec Ideal S100000x128 .f32) (b : FVec Ideal S1x128 .f32) : FVec Ideal S100000x128 .f32 :=
  addf A (rowsOf b)

theorem biasedOf_apply (A : FVec Ideal S100000x128 .f32) (b : FVec Ideal S1x128 .f32) (r : Fin 100000) (k : Fin 128) :
    biasedOf A b (ix2 r k) = A (ix2 r k) + b (ix2 0 k) := by
  show A (ix2 r k) + rowsOf b (ix2 r k) = _
  rw [show rowsOf b (ix2 r k) = b (ix2 0 k) from Cert.HostRead.row_rows_apply b _ r k]

theorem biasedOf_entry (A : FVec Ideal S100000x128 .f32) (b : FVec Ideal S1x128 .f32) (i : S100000x128.Idx) :
    biasedOf A b i = A i + b (ix2 0 (i 1)) := by
  obtain ⟨r, k, rfl⟩ : ∃ (r : Fin 100000) (k : Fin 128), i = ix2 r k := ⟨i 0, i 1, eq_ix2 i⟩
  exact biasedOf_apply A b r k

/-- The body's first stored value at entry `(p, k)` of the block. -/
theorem pay1_apply (x0 : Vec Ideal S5000x128 .f32) (x1 : Vec Ideal S1x128 .f32) (p : Fin 5000) (k : Fin 128) :
    k2_pay1 x0 x1 (ix2 p k) = x0 (ix2 p k) + x1 (ix2 0 k) := by
  unfold k2_pay1
  show addf (F := Ideal) (φ := .f32) (shapeCast S5000x128 x0 shapeCasts_S5000x128_S5000x128)
    (broadcastTo S5000x128 (shapeCast S1x128 x1 shapeCasts_S1x128_S1x128) broadcasts_S1x128_S5000x128) (ix2 p k) = _
  rw [shapeCast_self, shapeCast_self]
  show x0 (ix2 p k) + broadcastTo S5000x128 x1 broadcasts_S1x128_S5000x128 (ix2 p k) = _
  rw [Cert.BroadcastTo.row_apply]

theorem pay1_entry (x0 : Vec Ideal S5000x128 .f32) (x1 : Vec Ideal S1x128 .f32) (j : S5000x128.Idx) :
    k2_pay1 x0 x1 j = x0 j + x1 (ix2 0 (j 1)) := by
  obtain ⟨p, k, rfl⟩ : ∃ (p : Fin 5000) (k : Fin 128), j = ix2 p k := ⟨j 0, j 1, eq_ix2 j⟩
  exact pay1_apply x0 x1 p k

/-- The printed index maps over the grid. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0
    ∧ win2_5.index t (0 : Fin 2) = t.val ∧ win2_5.index t (1 : Fin 2) = 0 :=
  (by decide +kernel : ∀ t : Fin grid2.N, _)

/-- What point `t` writes back to the first result is block `t` of `A + rows of b`. -/
theorem flushed4_eq (c : Dev nD) (t : Fin cfg2.N) :
    (dat2 V c).flushed 4 t = ((cfg2.win 4).blk t).view.read (Elt Ideal) (biasedOf (V c main_v61) (V c main_v62)) := by
  show (cfg2.win 4).cut (grid2.coords t) ((dat2 V c).after 4 t) = _
  rw [after2_4]
  unfold out2_4
  rw [View.canon_unit_zero hz]
  simp only [View.ld_unit_zero (S := S5000x128) hz, View.ld_unit_zero (S := S1x128) hz]
  obtain ⟨e0, e1, e2, e3, e4, e5, e6, e7, e8, e9, e10, e11⟩ := idx_facts t
  funext j
  refine (pay1_entry _ _ j).trans ?_
  refine Eq.trans ?_ (biasedOf_entry _ _ _).symm
  have h0 : iblk2 V c 0 t j = V c main_v61 (((cfg2.win 4).blk t).view.emb j) := by
    unfold iblk2
    rw [View.read_apply]
    refine congrArg (V c main_v61) (funext fun a => Fin.ext ?_)
    match a with
    | ⟨0, _⟩ => show win2_0.index t (0 : Fin 2) * 5000 + 1 * (j 0).val = win2_4.index t (0 : Fin 2) * 5000 + 1 * (j 0).val; omega
    | ⟨1, _⟩ => show win2_0.index t (1 : Fin 2) * 128 + 1 * (j 1).val = win2_4.index t (1 : Fin 2) * 128 + 1 * (j 1).val; omega
  have h1 : iblk2 V c 1 t (ix2 0 (j 1)) = V c main_v62 (ix2 0 ((((cfg2.win 4).blk t).view.emb j) 1)) := by
    unfold iblk2
    rw [View.read_apply]
    refine congrArg (V c main_v62) (funext fun a => Fin.ext ?_)
    match a with
    | ⟨0, _⟩ => show win2_1.index t (0 : Fin 2) * 1 + 1 * 0 = 0; omega
    | ⟨1, _⟩ => show win2_1.index t (1 : Fin 2) * 128 + 1 * (j 1).val = win2_4.index t (1 : Fin 2) * 128 + 1 * (j 1).val; omega
  rw [h0, h1]

theorem mem_blk4 (t : Fin cfg2.N) (i : S100000x128.Idx) :
    i ∈ ((cfg2.win 4).blk t).view.set ↔ ∀ a : Fin 2, win2_4.index t a * S5000x128.size a ≤ (i a).val ∧ (i a).val < win2_4.index t a * S5000x128.size a + S5000x128.size a := by
  show i ∈ ((View.whole main_v64_0).slice (win2_4.rect t)).set ↔ _
  rw [View.set_slice_whole, Rect.mem_set_unit]
  exact Iff.rfl

/-- Row `r` of the first result lies in the block of point `r / 5000`. -/
theorem cover4 (i : S100000x128.Idx) : ∃ t : Fin cfg2.N, (cfg2.win 4).flush t = true ∧ i ∈ ((cfg2.win 4).blk t).view.set := by
  have hi0 : (i 0).val < 100000 := idx2_lt0 i
  have hi1 : (i 1).val < 128 := idx2_lt1 i
  refine ⟨⟨(i 0).val / 5000, by rw [show cfg2.N = 20 from N_2]; omega⟩, flush2_4 _, ?_⟩
  rw [mem_blk4]
  obtain ⟨e0, e1, e2, e3, e4, e5, e6, e7, e8, e9, e10, e11⟩ := idx_facts ⟨(i 0).val / 5000, by rw [show cfg2.N = 20 from N_2]; omega⟩
  intro a
  match a with
  | ⟨0, _⟩ => show win2_4.index _ (0 : Fin 2) * 5000 ≤ (i 0).val ∧ (i 0).val < win2_4.index _ (0 : Fin 2) * 5000 + 5000; rw [e8]; show (i 0).val / 5000 * 5000 ≤ (i 0).val ∧ (i 0).val < (i 0).val / 5000 * 5000 + 5000; omega
  | ⟨1, _⟩ => show win2_4.index _ (1 : Fin 2) * 128 ≤ (i 1).val ∧ (i 1).val < win2_4.index _ (1 : Fin 2) * 128 + 128; rw [e9]; omega

/-- The first result array after the region. -/
theorem final4 (c : Dev nD) : (dat2 V c).arrAt 4 cfg2.N = biasedOf (V c main_v61) (V c main_v62) :=
  (dat2 V c).arrAt_eq_of_cover 4 (biasedOf (V c main_v61) (V c main_v62)) (fun t _ => flushed4_eq V c t) cover4

/-! ## The second result: the head's product plus its bias row -/

/-- The host's product of a 100000×128 by a 128×10 matrix. -/
abbrev headProdOf (X : FVec Ideal S100000x128 .f32) (W : FVec Ideal S128x10 .f32) : FVec Ideal S100000x10 .f32 :=
  Host.dotGeneral Cert.ReferenceIdeal.dot_S100000x128_S128x10_S100000x10_1_0_0_1_n_n none X W

/-- A one-row matrix of 10 repeated down the 100000 rows. -/
abbrev rows10Of (b : FVec Ideal S1x10 .f32) : FVec Ideal S100000x10 .f32 :=
  broadcastInDim Cert.ReferenceIdeal.S100000x10 ![0, 1] Cert.ReferenceIdeal.Gen.bcast_S1x10_S100000x10_0_1 b

/-- `(A + rows of b) · Wf + rows of bf`, whole-array. -/
abbrev headOf (A : FVec Ideal S100000x128 .f32) (b : FVec Ideal S1x128 .f32) (Wf : FVec Ideal S128x10 .f32) (bf : FVec Ideal S1x10 .f32) : FVec Ideal S100000x10 .f32 :=
  addf (headProdOf (biasedOf A b) Wf) (rows10Of bf)

theorem headOf_apply (A : FVec Ideal S100000x128 .f32) (b : FVec Ideal S1x128 .f32) (Wf : FVec Ideal S128x10 .f32) (bf : FVec Ideal S1x10 .f32) (r : Fin 100000) (q : Fin 10) :
    headOf A b Wf bf (ix2 r q) = ∑ k : Fin 128, (A (ix2 r k) + b (ix2 0 k)) * Wf (ix2 k q) + bf (ix2 0 q) := by
  show headProdOf (biasedOf A b) Wf (ix2 r q) + rows10Of bf (ix2 r q) = _
  rw [show rows10Of bf (ix2 r q) = bf (ix2 0 q) from Cert.HostRead.row_rows_apply bf _ r q,
    show headProdOf (biasedOf A b) Wf (ix2 r q) = ∑ k : Fin 128, biasedOf A b (ix2 r k) * Wf (ix2 k q) from
      PlainProduct.dotGeneral_apply (φ₁ := .f32) (φ₂ := .f32) Cert.ReferenceIdeal.dot_S100000x128_S128x10_S100000x10_1_0_0_1_n_n.wf none (biasedOf A b) Wf r q]
  refine congrArg (· + bf (ix2 0 q)) (Finset.sum_congr rfl fun k _ => ?_)
  rw [biasedOf_apply]

theorem headOf_entry (A : FVec Ideal S100000x128 .f32) (b : FVec Ideal S1x128 .f32) (Wf : FVec Ideal S128x10 .f32) (bf : FVec Ideal S1x10 .f32) (i : S100000x10.Idx) :
    headOf A b Wf bf i = ∑ k : Fin 128, (A (ix2 (i 0) k) + b (ix2 0 k)) * Wf (ix2 k (i 1)) + bf (ix2 0 (i 1)) := by
  obtain ⟨r, q, rfl⟩ : ∃ (r : Fin 100000) (q : Fin 10), i = ix2 r q := ⟨i 0, i 1, eq_ix2 i⟩
  exact headOf_apply A b Wf bf r q

/-- The body's second stored value at entry `(p, q)` of the block. -/
theorem pay2_apply (x0 : Vec Ideal S5000x128 .f32) (x1 : Vec Ideal S1x128 .f32) (x2 : Vec Ideal S128x10 .f32) (x3 : Vec Ideal S1x10 .f32) (p : Fin 5000) (q : Fin 10) :
    k2_pay2 x0 x1 x2 x3 (ix2 p q) = ∑ k : Fin 128, (x0 (ix2 p k) + x1 (ix2 0 k)) * x2 (ix2 k q) + x3 (ix2 0 q) := by
  unfold k2_pay2
  show matmul dot_S5000x128_S128x10_S5000x10_1_0_0_1_n_n none (truncf .bf16 (k2_pay1 x0 x1) bitsLt_bf16_f32) (truncf .bf16 x2 bitsLt_bf16_f32) (constant (F := Ideal) S5000x10 .f32 0x00000000#32) (ix2 p q)
      + broadcastTo S5000x10 (shapeCast S1x10 x3 shapeCasts_S1x10_S1x10) broadcasts_S1x10_S5000x10 (ix2 p q) = _
  rw [shapeCast_self, Cert.BroadcastTo.row_apply]
  refine congrArg (· + x3 (ix2 0 q)) ?_
  refine (PlainProduct.matmul_zero_apply (φ₁ := .bf16) (φ₂ := .bf16) dot_S5000x128_S128x10_S5000x10_1_0_0_1_n_n.wf none (k2_pay1 x0 x1) x2 p q).trans ?_
  refine Finset.sum_congr rfl fun k _ => ?_
  rw [pay1_apply]

theorem pay2_entry (x0 : Vec Ideal S5000x128 .f32) (x1 : Vec Ideal S1x128 .f32) (x2 : Vec Ideal S128x10 .f32) (x3 : Vec Ideal S1x10 .f32) (j : S5000x10.Idx) :
    k2_pay2 x0 x1 x2 x3 j = ∑ k : Fin 128, (x0 (ix2 (j 0) k) + x1 (ix2 0 k)) * x2 (ix2 k (j 1)) + x3 (ix2 0 (j 1)) := by
  obtain ⟨p, q, rfl⟩ : ∃ (p : Fin 5000) (q : Fin 10), j = ix2 p q := ⟨j 0, j 1, eq_ix2 j⟩
  exact pay2_apply x0 x1 x2 x3 p q

/-- What point `t` writes back to the second result is block `t` of the whole-array head. -/
theorem flushed5_eq (c : Dev nD) (t : Fin cfg2.N) :
    (dat2 V c).flushed 5 t = ((cfg2.win 5).blk t).view.read (Elt Ideal) (headOf (V c main_v61) (V c main_v62) (V c main_arg5) (V c main_v63)) := by
  show (cfg2.win 5).cut (grid2.coords t) ((dat2 V c).after 5 t) = _
  rw [after2_5]
  unfold out2_5
  rw [View.canon_unit_zero hz]
  simp only [View.ld_unit_zero (S := S5000x128) hz, View.ld_unit_zero (S := S1x128) hz, View.ld_unit_zero (S := S128x10) hz, View.ld_unit_zero (S := S1x10) hz]
  obtain ⟨e0, e1, e2, e3, e4, e5, e6, e7, e8, e9, e10, e11⟩ := idx_facts t
  funext j
  refine (pay2_entry _ _ _ _ j).trans ?_
  refine Eq.trans ?_ (headOf_entry _ _ _ _ _).symm
  have h3 : iblk2 V c 3 t (ix2 0 (j 1)) = V c main_v63 (ix2 0 ((((cfg2.win 5).blk t).view.emb j) 1)) := by
    unfold iblk2
    rw [View.read_apply]
    refine congrArg (V c main_v63) (funext fun a => Fin.ext ?_)
    match a with
    | ⟨0, _⟩ => show win2_3.index t (0 : Fin 2) * 1 + 1 * 0 = 0; omega
    | ⟨1, _⟩ => show win2_3.index t (1 : Fin 2) * 10 + 1 * (j 1).val = win2_5.index t (1 : Fin 2) * 10 + 1 * (j 1).val; omega
  have h0 : ∀ k : Fin 128, iblk2 V c 0 t (ix2 (j 0) k) = V c main_v61 (ix2 ((((cfg2.win 5).blk t).view.emb j) 0) k) := by
    intro k
    unfold iblk2
    rw [View.read_apply]
    refine congrArg (V c main_v61) (funext fun a => Fin.ext ?_)
    match a with
    | ⟨0, _⟩ => show win2_0.index t (0 : Fin 2) * 5000 + 1 * (j 0).val = win2_5.index t (0 : Fin 2) * 5000 + 1 * (j 0).val; omega
    | ⟨1, _⟩ => show win2_0.index t (1 : Fin 2) * 128 + 1 * k.val = k.val; omega
  have h1 : ∀ k : Fin 128, iblk2 V c 1 t (ix2 0 k) = V c main_v62 (ix2 0 k) := by
    intro k
    unfold iblk2
    rw [View.read_apply]
    refine congrArg (V c main_v62) (funext fun a => Fin.ext ?_)
    match a with
    | ⟨0, _⟩ => show win2_1.index t (0 : Fin 2) * 1 + 1 * 0 = 0; omega
    | ⟨1, _⟩ => show win2_1.index t (1 : Fin 2) * 128 + 1 * k.val = k.val; omega
  have h2 : ∀ k : Fin 128, iblk2 V c 2 t (ix2 k (j 1)) = V c main_arg5 (ix2 k ((((cfg2.win 5).blk t).view.emb j) 1)) := by
    intro k
    unfold iblk2
    rw [View.read_apply]
    refine congrArg (V c main_arg5) (funext fun a => Fin.ext ?_)
    match a with
    | ⟨0, _⟩ => show win2_2.index t (0 : Fin 2) * 128 + 1 * k.val = k.val; omega
    | ⟨1, _⟩ => show win2_2.index t (1 : Fin 2) * 10 + 1 * (j 1).val = win2_5.index t (1 : Fin 2) * 10 + 1 * (j 1).val; omega
  exact congrArg₂ (· + ·) (Finset.sum_congr rfl fun k _ => congrArg₂ (· * ·) (congrArg₂ (· + ·) (h0 k) (h1 k)) (h2 k)) h3

theorem mem_blk5 (t : Fin cfg2.N) (i : S100000x10.Idx) :
    i ∈ ((cfg2.win 5).blk t).view.set ↔ ∀ a : Fin 2, win2_5.index t a * S5000x10.size a ≤ (i a).val ∧ (i a).val < win2_5.index t a * S5000x10.size a + S5000x10.size a := by
  show i ∈ ((View.whole main_v64_1).slice (win2_5.rect t)).set ↔ _
  rw [View.set_slice_whole, Rect.mem_set_unit]
  exact Iff.rfl

/-- Row `r` of the second result lies in the block of point `r / 5000`. -/
theorem cover5 (i : S100000x10.Idx) : ∃ t : Fin cfg2.N, (cfg2.win 5).flush t = true ∧ i ∈ ((cfg2.win 5).blk t).view.set := by
  have hi0 : (i 0).val < 100000 := idx2_lt0 i
  have hi1 : (i 1).val < 10 := idx2_lt1 i
  refine ⟨⟨(i 0).val / 5000, by rw [show cfg2.N = 20 from N_2]; omega⟩, flush2_5 _, ?_⟩
  rw [mem_blk5]
  obtain ⟨e0, e1, e2, e3, e4, e5, e6, e7, e8, e9, e10, e11⟩ := idx_facts ⟨(i 0).val / 5000, by rw [show cfg2.N = 20 from N_2]; omega⟩
  intro a
  match a with
  | ⟨0, _⟩ => show win2_5.index _ (0 : Fin 2) * 5000 ≤ (i 0).val ∧ (i 0).val < win2_5.index _ (0 : Fin 2) * 5000 + 5000; rw [e10]; show (i 0).val / 5000 * 5000 ≤ (i 0).val ∧ (i 0).val < (i 0).val / 5000 * 5000 + 5000; omega
  | ⟨1, _⟩ => show win2_5.index _ (1 : Fin 2) * 10 ≤ (i 1).val ∧ (i 1).val < win2_5.index _ (1 : Fin 2) * 10 + 10; rw [e11]; omega

/-- The second result array after the region. -/
theorem final5 (c : Dev nD) : (dat2 V c).arrAt 5 cfg2.N = headOf (V c main_v61) (V c main_v62) (V c main_arg5) (V c main_v63) :=
  (dat2 V c).arrAt_eq_of_cover 5 (headOf (V c main_v61) (V c main_v62) (V c main_arg5) (V c main_v63)) (fun t _ => flushed5_eq V c t) cover5

end Cert.KernelIdeal.Region2

end
-- ==== Proof.LibLayoutReads.lean ====
/-
  Three layout operations read at one entry, general in the extents and in the element type.

  * a vector `[n]` reshaped to a column `[n, 1]`: entry `(r, 0)` is the vector's entry `r` (both sit at row-major
    position `r`);
  * a vector `[n]` reshaped to a row `[1, n]`: entry `(0, b)` is the vector's entry `b`;
  * `r` consecutive rows of a matrix `[R, C]` from row `o` on, all `C` columns: entry `(a, b)` is the matrix's entry
    `(o + a, b)`.
-/
import Idealize.ShloMosaic.Lib.Pipeline.Value
import Idealize.ShloMosaic.Lib.ValueIdx

noncomputable section

namespace Cert.LayoutReads

open Idealize.ShloMosaic Idealize.ShloMosaic.ValueIdx

variable {α : Type}

/-- A vector `[n]` reshaped to a column `[n, 1]`, read at `(r, 0)`, is the vector at `r`. -/
theorem col_of_vec_apply {n : Nat} (v : (⟨1, ![n]⟩ : Shape).Idx → α) (h : (⟨1, ![n]⟩ : Shape).ShapeCasts ⟨2, ![n, 1]⟩)
    (r : Fin n) : shapeCast ⟨2, ![n, 1]⟩ v h (ix2 r (0 : Fin 1)) = v (ix1 r) :=
  shapeCast_apply v h (ix2 r (0 : Fin 1)) (ix1 r) (by
    rw [Shape.rowMajor_val_two, Shape.rowMajor_val_one]; show r.val = r.val * 1 + 0; omega)

/-- A vector `[n]` reshaped to a row `[1, n]`, read at `(0, b)`, is the vector at `b`. -/
theorem row_of_vec_apply {n : Nat} (v : (⟨1, ![n]⟩ : Shape).Idx → α) (h : (⟨1, ![n]⟩ : Shape).ShapeCasts ⟨2, ![1, n]⟩)
    (b : Fin n) : shapeCast ⟨2, ![1, n]⟩ v h (ix2 (0 : Fin 1) b) = v (ix1 b) :=
  shapeCast_apply v h (ix2 (0 : Fin 1) b) (ix1 b) (by
    rw [Shape.rowMajor_val_two, Shape.rowMajor_val_one]; show b.val = 0 * n + b.val; omega)

/-- Rows `o` to `o + r` of a matrix `[R, C]`, all columns, read at `(a, b)`, are the matrix at `(o + a, b)`. -/
theorem rows_slice_apply {R C r o : Nat} (x : (⟨2, ![R, C]⟩ : Shape).Idx → α)
    (h : (⟨2, ![R, C]⟩ : Shape).Slices ![o, 0] ⟨2, ![r, C]⟩) (hb : o + r ≤ R) (a : Fin r) (b : Fin C) :
    extractStridedSlice ⟨2, ![r, C]⟩ ![o, 0] x h (ix2 a b)
      = x (ix2 (⟨o + a.val, by have := a.isLt; omega⟩ : Fin R) b) :=
  extractStridedSlice_apply ![o, 0] x h (ix2 a b) (ix2 (⟨o + a.val, by have := a.isLt; omega⟩ : Fin R) b)
    (fun c => match c with
      | ⟨0, _⟩ => rfl
      | ⟨1, _⟩ => by show b.val = 0 + b.val; omega)

end Cert.LayoutReads

end
-- ==== Proof.Fold.lean ====
/-
  The contents of the buffers the three regions read and write, followed through @main.

  Before the first region the host builds the edge lists with their self-loops and the edge weights; the first region
  leaves `x · W1`; the host aggregates it along the edges; the second region leaves `max (· + b1, 0) · W2`; the host
  aggregates again; the third region leaves `· + b2` and its product with `Wf` plus `bf`. Each step below names what one
  buffer holds at one boundary as a stage of the graph convolution (GraphConv.lean), from the launch contents of the
  arguments: a stretch of host operations by running its operations' results, a region by what it leaves (Region0–2).
  A buffer that no operation of a stretch writes, and that is not an array of a region, keeps its contents.
  Gathering from a 16-bit-float array and widening is, on the extended reals, gathering from the array.
-/
import proofs.«164294_j83013127897500_2_alg».proof.Proof.Gen.KernelIdeal.Frame
import proofs.«164294_j83013127897500_2_alg».proof.Proof.GraphConv
import proofs.«164294_j83013127897500_2_alg».proof.Proof.Region0
import proofs.«164294_j83013127897500_2_alg».proof.Proof.Region1
import proofs.«164294_j83013127897500_2_alg».proof.Proof.Region2
import proofs.«164294_j83013127897500_2_alg».proof.Proof.LibLayoutReads
import proofs.«164294_j83013127897500_2_alg».proof.Proof.LibHostRead
import Idealize.ShloMosaic.Lib.StableHlo.Run

set_option maxRecDepth 16384

noncomputable section

namespace Cert.KernelIdeal.Fold

open Cert.KernelIdeal Cert.KernelIdeal.Gen
open Idealize.ShloMosaic Idealize.ShloMosaic.TcCoe Idealize.ShloMosaic.ValueIdx Idealize.SL.Sem
open Cert.GraphConv

variable (m : (ℓ : Loc nD τ sig) → Buf (Elt Ideal) ℓ) (ρ : Dev nD → PrngReg) (c : Dev nD)

/-! ## Before the first region -/

theorem W3_arg0 : W3 m ρ c (Proc.devRef .tc main_arg0) = (m ((c.tc : Thread nD τ).loc main_arg0)) := by
  show StableHlo.after hostOps0_2 (StableHlo.after hostOps0_1 (StableHlo.after hostOps0 (W0 m ρ c))) (Proc.devRef .tc main_arg0) = _
  after_results_simp
theorem W3_arg1 : W3 m ρ c (Proc.devRef .tc main_arg1) = (m ((c.tc : Thread nD τ).loc main_arg1)) := by
  show StableHlo.after hostOps0_2 (StableHlo.after hostOps0_1 (StableHlo.after hostOps0 (W0 m ρ c))) (Proc.devRef .tc main_arg1) = _
  after_results_simp
theorem W3_arg2 : W3 m ρ c (Proc.devRef .tc main_arg2) = (m ((c.tc : Thread nD τ).loc main_arg2)) := by
  show StableHlo.after hostOps0_2 (StableHlo.after hostOps0_1 (StableHlo.after hostOps0 (W0 m ρ c))) (Proc.devRef .tc main_arg2) = _
  after_results_simp
theorem W3_arg3 : W3 m ρ c (Proc.devRef .tc main_arg3) = (m ((c.tc : Thread nD τ).loc main_arg3)) := by
  show StableHlo.after hostOps0_2 (StableHlo.after hostOps0_1 (StableHlo.after hostOps0 (W0 m ρ c))) (Proc.devRef .tc main_arg3) = _
  after_results_simp
theorem W3_arg4 : W3 m ρ c (Proc.devRef .tc main_arg4) = (m ((c.tc : Thread nD τ).loc main_arg4)) := by
  show StableHlo.after hostOps0_2 (StableHlo.after hostOps0_1 (StableHlo.after hostOps0 (W0 m ρ c))) (Proc.devRef .tc main_arg4) = _
  after_results_simp
theorem W3_arg5 : W3 m ρ c (Proc.devRef .tc main_arg5) = (m ((c.tc : Thread nD τ).loc main_arg5)) := by
  show StableHlo.after hostOps0_2 (StableHlo.after hostOps0_1 (StableHlo.after hostOps0 (W0 m ρ c))) (Proc.devRef .tc main_arg5) = _
  after_results_simp
theorem W3_arg6 : W3 m ρ c (Proc.devRef .tc main_arg6) = (m ((c.tc : Thread nD τ).loc main_arg6)) := by
  show StableHlo.after hostOps0_2 (StableHlo.after hostOps0_1 (StableHlo.after hostOps0 (W0 m ρ c))) (Proc.devRef .tc main_arg6) = _
  after_results_simp

/-- The sources with the self-loops. -/
theorem W3_src : W3 m ρ c (Proc.devRef .tc main_v5) = srcOf (m ((c.tc : Thread nD τ).loc main_arg7)) := by
  show StableHlo.after hostOps0_2 (StableHlo.after hostOps0_1 (StableHlo.after hostOps0 (W0 m ρ c))) (Proc.devRef .tc main_v5) = _
  after_results_simp
  rfl
/-- The destinations with the self-loops. -/
theorem W3_dst : W3 m ρ c (Proc.devRef .tc main_v6) = dstOf (m ((c.tc : Thread nD τ).loc main_arg7)) := by
  show StableHlo.after hostOps0_2 (StableHlo.after hostOps0_1 (StableHlo.after hostOps0 (W0 m ρ c))) (Proc.devRef .tc main_v6) = _
  after_results_simp
  rfl
/-- The degrees, after the first stretch of host operations. -/
theorem W1_deg : W1 m ρ c (Proc.devRef .tc main_v10) = degOf (dstOf (m ((c.tc : Thread nD τ).loc main_arg7))) := by
  show StableHlo.after hostOps0 (W0 m ρ c) (Proc.devRef .tc main_v10) = _
  after_results_simp
  rfl
/-- Which degrees are positive. -/
theorem W1_pos : W1 m ρ c (Proc.devRef .tc main_v12) = cmpf (F := Ideal) .ogt (degOf (dstOf (m ((c.tc : Thread nD τ).loc main_arg7)))) (broadcastInDim Cert.ReferenceIdeal.S100000 ![] Cert.ReferenceIdeal.Gen.bcast_S_S100000 (constant (F := Ideal) Cert.ReferenceIdeal.S_ .f32 0x00000000#32)) := by
  show StableHlo.after hostOps0 (W0 m ρ c) (Proc.devRef .tc main_v12) = _
  after_results_simp
  rfl
theorem W1_one : W1 m ρ c (Proc.devRef .tc main_cst_2) = constant (F := Ideal) Cert.ReferenceIdeal.S_ .f32 0x3F800000#32 := by
  show StableHlo.after hostOps0 (W0 m ρ c) (Proc.devRef .tc main_cst_2) = _
  after_results_simp
theorem W1_src : W1 m ρ c (Proc.devRef .tc main_v5) = srcOf (m ((c.tc : Thread nD τ).loc main_arg7)) := by
  show StableHlo.after hostOps0 (W0 m ρ c) (Proc.devRef .tc main_v5) = _
  after_results_simp
  rfl
theorem W1_dst : W1 m ρ c (Proc.devRef .tc main_v6) = dstOf (m ((c.tc : Thread nD τ).loc main_arg7)) := by
  show StableHlo.after hostOps0 (W0 m ρ c) (Proc.devRef .tc main_v6) = _
  after_results_simp
  rfl

/-- Contents carried to a buffer's own type and back are themselves, for the buffers of the guarded selection. -/
theorem cast_v13 (v : (⟨S100000, .f32⟩ : BufTy).Contents (Elt Ideal)) : (StableHlo.TRef.of (sig := sig) (T := ⟨S100000, .f32⟩) main_v13).toBuf v = v := rfl
theorem cast_v12 (v : main_v12.ty.Contents (Elt Ideal)) : (StableHlo.TRef.of (sig := sig) (T := ⟨S100000, .i1⟩) main_v12).ofBuf v = v := rfl
theorem cast_v10 (v : main_v10.ty.Contents (Elt Ideal)) : (StableHlo.TRef.of (sig := sig) (T := ⟨S100000, .f32⟩) main_v10).ofBuf v = v := rfl
theorem cast_c1 (v : (⟨S100000, .f32⟩ : BufTy).Contents (Elt Ideal)) : (StableHlo.TRef.of (sig := sig) (T := ⟨S100000, .f32⟩) main_call0_v1).ofBuf ((StableHlo.TRef.of (sig := sig) (T := ⟨S100000, .f32⟩) main_call0_v1).toBuf v) = v := rfl
theorem cast_c0 (v : (⟨S_, .f32⟩ : BufTy).Contents (Elt Ideal)) : (StableHlo.TRef.of (sig := sig) (T := ⟨S_, .f32⟩) main_call0_v0).ofBuf ((StableHlo.TRef.of (sig := sig) (T := ⟨S_, .f32⟩) main_call0_v0).toBuf v) = v := rfl
theorem cast_cst (v : main_cst_2.ty.Contents (Elt Ideal)) : (StableHlo.TRef.of (sig := sig) (T := ⟨S_, .f32⟩) main_cst_2).ofBuf v = v := rfl

/-- The degrees with 1 in place of a degree that is not positive, after the guarded selection. -/
theorem W2_sel : W2 m ρ c (Proc.devRef .tc main_v13) = select (cmpf (F := Ideal) .ogt (degOf (dstOf (m ((c.tc : Thread nD τ).loc main_arg7)))) (broadcastInDim Cert.ReferenceIdeal.S100000 ![] Cert.ReferenceIdeal.Gen.bcast_S_S100000 (constant (F := Ideal) Cert.ReferenceIdeal.S_ .f32 0x00000000#32))) (degOf (dstOf (m ((c.tc : Thread nD τ).loc main_arg7)))) (broadcastInDim Cert.ReferenceIdeal.S100000 ![] Cert.ReferenceIdeal.Gen.bcast_S_S100000 (id (constant (F := Ideal) Cert.ReferenceIdeal.S_ .f32 0x3F800000#32))) := by
  have h10 := W1_deg m ρ c
  have h12 := W1_pos m ρ c
  have h1 := W1_one m ρ c
  show StableHlo.after hostOps0_1 (W1 m ρ c) (Proc.devRef .tc main_v13) = _
  generalize W1 m ρ c = Wv at h10 h12 h1 ⊢
  after_results_simp
  rw [h10, h12, h1]
  rw [cast_v13, cast_v12, cast_v10, cast_c1, cast_c0, cast_cst]
theorem W2_src : W2 m ρ c (Proc.devRef .tc main_v5) = srcOf (m ((c.tc : Thread nD τ).loc main_arg7)) := by
  have h := W1_src m ρ c
  show StableHlo.after hostOps0_1 (W1 m ρ c) (Proc.devRef .tc main_v5) = _
  generalize W1 m ρ c = Wv at h ⊢
  after_results_simp
  exact h
theorem W2_dst : W2 m ρ c (Proc.devRef .tc main_v6) = dstOf (m ((c.tc : Thread nD τ).loc main_arg7)) := by
  have h := W1_dst m ρ c
  show StableHlo.after hostOps0_1 (W1 m ρ c) (Proc.devRef .tc main_v6) = _
  generalize W1 m ρ c = Wv at h ⊢
  after_results_simp
  exact h

/-- The edge weights. -/
theorem W3_norm : W3 m ρ c (Proc.devRef .tc main_v30) = normOf (srcOf (m ((c.tc : Thread nD τ).loc main_arg7))) (dstOf (m ((c.tc : Thread nD τ).loc main_arg7))) := by
  have h13 := W2_sel m ρ c
  have h5 := W2_src m ρ c
  have h6 := W2_dst m ρ c
  show StableHlo.after hostOps0_2 (W2 m ρ c) (Proc.devRef .tc main_v30) = _
  generalize W2 m ρ c = Wv at h13 h5 h6 ⊢
  after_results_simp
  rw [h13, h5, h6]
  rfl

/-! ## After the first region -/

theorem W4_xw : W4 m ρ c (Proc.devRef .tc main_v31) = Region0.prodOf (m ((c.tc : Thread nD τ).loc main_arg0)) (m ((c.tc : Thread nD τ).loc main_arg1)) := by
  refine (W4_arr m ρ c 2).trans ((Region0.final (V3 m ρ) c).trans ?_)
  show Region0.prodOf (W3 m ρ c (Proc.devRef .tc main_arg0)) (W3 m ρ c (Proc.devRef .tc main_arg1)) = _
  rw [W3_arg0, W3_arg1]
theorem W4_src : W4 m ρ c (Proc.devRef .tc main_v5) = srcOf (m ((c.tc : Thread nD τ).loc main_arg7)) := (W4_of_ne m ρ c main_v5 (by decide)).trans (W3_src m ρ c)
theorem W4_dst : W4 m ρ c (Proc.devRef .tc main_v6) = dstOf (m ((c.tc : Thread nD τ).loc main_arg7)) := (W4_of_ne m ρ c main_v6 (by decide)).trans (W3_dst m ρ c)
theorem W4_norm : W4 m ρ c (Proc.devRef .tc main_v30) = normOf (srcOf (m ((c.tc : Thread nD τ).loc main_arg7))) (dstOf (m ((c.tc : Thread nD τ).loc main_arg7))) := (W4_of_ne m ρ c main_v30 (by decide)).trans (W3_norm m ρ c)
theorem W4_arg2 : W4 m ρ c (Proc.devRef .tc main_arg2) = (m ((c.tc : Thread nD τ).loc main_arg2)) := (W4_of_ne m ρ c main_arg2 (by decide)).trans (W3_arg2 m ρ c)
theorem W4_arg3 : W4 m ρ c (Proc.devRef .tc main_arg3) = (m ((c.tc : Thread nD τ).loc main_arg3)) := (W4_of_ne m ρ c main_arg3 (by decide)).trans (W3_arg3 m ρ c)
theorem W4_arg4 : W4 m ρ c (Proc.devRef .tc main_arg4) = (m ((c.tc : Thread nD τ).loc main_arg4)) := (W4_of_ne m ρ c main_arg4 (by decide)).trans (W3_arg4 m ρ c)
theorem W4_arg5 : W4 m ρ c (Proc.devRef .tc main_arg5) = (m ((c.tc : Thread nD τ).loc main_arg5)) := (W4_of_ne m ρ c main_arg5 (by decide)).trans (W3_arg5 m ρ c)
theorem W4_arg6 : W4 m ρ c (Proc.devRef .tc main_arg6) = (m ((c.tc : Thread nD τ).loc main_arg6)) := (W4_of_ne m ρ c main_arg6 (by decide)).trans (W3_arg6 m ρ c)

/-! ## Before the second region -/

/-- The first aggregation. -/
theorem W5_agg : W5 m ρ c (Proc.devRef .tc main_v45) = aggOf (Region0.prodOf (m ((c.tc : Thread nD τ).loc main_arg0)) (m ((c.tc : Thread nD τ).loc main_arg1))) (normOf (srcOf (m ((c.tc : Thread nD τ).loc main_arg7))) (dstOf (m ((c.tc : Thread nD τ).loc main_arg7)))) (srcOf (m ((c.tc : Thread nD τ).loc main_arg7))) (dstOf (m ((c.tc : Thread nD τ).loc main_arg7))) := by
  show StableHlo.after hostOps1 (W4 m ρ c) (Proc.devRef .tc main_v45) = _
  after_results_simp
  rw [W4_xw, W4_src, W4_dst, W4_norm]
  rfl
/-- The first bias as a row. -/
theorem W5_bias : W5 m ρ c (Proc.devRef .tc main_v46) = shapeCast S1x128 (m ((c.tc : Thread nD τ).loc main_arg2)) shapeCasts_S128_S1x128 := by
  show StableHlo.after hostOps1 (W4 m ρ c) (Proc.devRef .tc main_v46) = _
  after_results_simp
  rw [W4_arg2]
  rfl
theorem W5_arg3 : W5 m ρ c (Proc.devRef .tc main_arg3) = (m ((c.tc : Thread nD τ).loc main_arg3)) := by
  show StableHlo.after hostOps1 (W4 m ρ c) (Proc.devRef .tc main_arg3) = _
  after_results_simp
  exact W4_arg3 m ρ c
theorem W5_arg4 : W5 m ρ c (Proc.devRef .tc main_arg4) = (m ((c.tc : Thread nD τ).loc main_arg4)) := by
  show StableHlo.after hostOps1 (W4 m ρ c) (Proc.devRef .tc main_arg4) = _
  after_results_simp
  exact W4_arg4 m ρ c
theorem W5_arg5 : W5 m ρ c (Proc.devRef .tc main_arg5) = (m ((c.tc : Thread nD τ).loc main_arg5)) := by
  show StableHlo.after hostOps1 (W4 m ρ c) (Proc.devRef .tc main_arg5) = _
  after_results_simp
  exact W4_arg5 m ρ c
theorem W5_arg6 : W5 m ρ c (Proc.devRef .tc main_arg6) = (m ((c.tc : Thread nD τ).loc main_arg6)) := by
  show StableHlo.after hostOps1 (W4 m ρ c) (Proc.devRef .tc main_arg6) = _
  after_results_simp
  exact W4_arg6 m ρ c
theorem W5_src : W5 m ρ c (Proc.devRef .tc main_v5) = srcOf (m ((c.tc : Thread nD τ).loc main_arg7)) := by
  show StableHlo.after hostOps1 (W4 m ρ c) (Proc.devRef .tc main_v5) = _
  after_results_simp
  exact W4_src m ρ c
theorem W5_dst : W5 m ρ c (Proc.devRef .tc main_v6) = dstOf (m ((c.tc : Thread nD τ).loc main_arg7)) := by
  show StableHlo.after hostOps1 (W4 m ρ c) (Proc.devRef .tc main_v6) = _
  after_results_simp
  exact W4_dst m ρ c
theorem W5_norm : W5 m ρ c (Proc.devRef .tc main_v30) = normOf (srcOf (m ((c.tc : Thread nD τ).loc main_arg7))) (dstOf (m ((c.tc : Thread nD τ).loc main_arg7))) := by
  show StableHlo.after hostOps1 (W4 m ρ c) (Proc.devRef .tc main_v30) = _
  after_results_simp
  exact W4_norm m ρ c

/-! ## After the second region -/

theorem W6_xw : W6 m ρ c (Proc.devRef .tc main_v47) = Region1.resultOf (aggOf (Region0.prodOf (m ((c.tc : Thread nD τ).loc main_arg0)) (m ((c.tc : Thread nD τ).loc main_arg1))) (normOf (srcOf (m ((c.tc : Thread nD τ).loc main_arg7))) (dstOf (m ((c.tc : Thread nD τ).loc main_arg7)))) (srcOf (m ((c.tc : Thread nD τ).loc main_arg7))) (dstOf (m ((c.tc : Thread nD τ).loc main_arg7)))) (shapeCast S1x128 (m ((c.tc : Thread nD τ).loc main_arg2)) shapeCasts_S128_S1x128) (m ((c.tc : Thread nD τ).loc main_arg3)) := by
  refine (W6_arr m ρ c 3).trans ((Region1.final (V5 m ρ) c).trans ?_)
  show Region1.resultOf (W5 m ρ c (Proc.devRef .tc main_v45)) (W5 m ρ c (Proc.devRef .tc main_v46)) (W5 m ρ c (Proc.devRef .tc main_arg3)) = _
  rw [W5_agg, W5_bias, W5_arg3]
theorem W6_src : W6 m ρ c (Proc.devRef .tc main_v5) = srcOf (m ((c.tc : Thread nD τ).loc main_arg7)) := (W6_of_ne m ρ c main_v5 (by decide)).trans (W5_src m ρ c)
theorem W6_dst : W6 m ρ c (Proc.devRef .tc main_v6) = dstOf (m ((c.tc : Thread nD τ).loc main_arg7)) := (W6_of_ne m ρ c main_v6 (by decide)).trans (W5_dst m ρ c)
theorem W6_norm : W6 m ρ c (Proc.devRef .tc main_v30) = normOf (srcOf (m ((c.tc : Thread nD τ).loc main_arg7))) (dstOf (m ((c.tc : Thread nD τ).loc main_arg7))) := (W6_of_ne m ρ c main_v30 (by decide)).trans (W5_norm m ρ c)
theorem W6_arg4 : W6 m ρ c (Proc.devRef .tc main_arg4) = (m ((c.tc : Thread nD τ).loc main_arg4)) := (W6_of_ne m ρ c main_arg4 (by decide)).trans (W5_arg4 m ρ c)
theorem W6_arg5 : W6 m ρ c (Proc.devRef .tc main_arg5) = (m ((c.tc : Thread nD τ).loc main_arg5)) := (W6_of_ne m ρ c main_arg5 (by decide)).trans (W5_arg5 m ρ c)
theorem W6_arg6 : W6 m ρ c (Proc.devRef .tc main_arg6) = (m ((c.tc : Thread nD τ).loc main_arg6)) := (W6_of_ne m ρ c main_arg6 (by decide)).trans (W5_arg6 m ρ c)

/-! ## Before the third region -/

/-- The second aggregation. -/
theorem W7_agg : W7 m ρ c (Proc.devRef .tc main_v61) = aggOf (Region1.resultOf (aggOf (Region0.prodOf (m ((c.tc : Thread nD τ).loc main_arg0)) (m ((c.tc : Thread nD τ).loc main_arg1))) (normOf (srcOf (m ((c.tc : Thread nD τ).loc main_arg7))) (dstOf (m ((c.tc : Thread nD τ).loc main_arg7)))) (srcOf (m ((c.tc : Thread nD τ).loc main_arg7))) (dstOf (m ((c.tc : Thread nD τ).loc main_arg7)))) (shapeCast S1x128 (m ((c.tc : Thread nD τ).loc main_arg2)) shapeCasts_S128_S1x128) (m ((c.tc : Thread nD τ).loc main_arg3))) (normOf (srcOf (m ((c.tc : Thread nD τ).loc main_arg7))) (dstOf (m ((c.tc : Thread nD τ).loc main_arg7)))) (srcOf (m ((c.tc : Thread nD τ).loc main_arg7))) (dstOf (m ((c.tc : Thread nD τ).loc main_arg7))) := by
  show StableHlo.after hostOps2 (W6 m ρ c) (Proc.devRef .tc main_v61) = _
  after_results_simp
  rw [W6_xw, W6_src, W6_dst, W6_norm]
  rfl
/-- The second bias as a row. -/
theorem W7_bias : W7 m ρ c (Proc.devRef .tc main_v62) = shapeCast S1x128 (m ((c.tc : Thread nD τ).loc main_arg4)) shapeCasts_S128_S1x128 := by
  show StableHlo.after hostOps2 (W6 m ρ c) (Proc.devRef .tc main_v62) = _
  after_results_simp
  rw [W6_arg4]
  rfl
/-- The head's bias as a row. -/
theorem W7_hbias : W7 m ρ c (Proc.devRef .tc main_v63) = shapeCast S1x10 (m ((c.tc : Thread nD τ).loc main_arg6)) shapeCasts_S10_S1x10 := by
  show StableHlo.after hostOps2 (W6 m ρ c) (Proc.devRef .tc main_v63) = _
  after_results_simp
  rw [W6_arg6]
  rfl
theorem W7_arg5 : W7 m ρ c (Proc.devRef .tc main_arg5) = (m ((c.tc : Thread nD τ).loc main_arg5)) := by
  show StableHlo.after hostOps2 (W6 m ρ c) (Proc.devRef .tc main_arg5) = _
  after_results_simp
  exact W6_arg5 m ρ c

/-! ## After the third region: the two results -/

theorem W8_h : W8 m ρ c (Proc.devRef .tc main_v64_0) = Region2.biasedOf (aggOf (Region1.resultOf (aggOf (Region0.prodOf (m ((c.tc : Thread nD τ).loc main_arg0)) (m ((c.tc : Thread nD τ).loc main_arg1))) (normOf (srcOf (m ((c.tc : Thread nD τ).loc main_arg7))) (dstOf (m ((c.tc : Thread nD τ).loc main_arg7)))) (srcOf (m ((c.tc : Thread nD τ).loc main_arg7))) (dstOf (m ((c.tc : Thread nD τ).loc main_arg7)))) (shapeCast S1x128 (m ((c.tc : Thread nD τ).loc main_arg2)) shapeCasts_S128_S1x128) (m ((c.tc : Thread nD τ).loc main_arg3))) (normOf (srcOf (m ((c.tc : Thread nD τ).loc main_arg7))) (dstOf (m ((c.tc : Thread nD τ).loc main_arg7)))) (srcOf (m ((c.tc : Thread nD τ).loc main_arg7))) (dstOf (m ((c.tc : Thread nD τ).loc main_arg7)))) (shapeCast S1x128 (m ((c.tc : Thread nD τ).loc main_arg4)) shapeCasts_S128_S1x128) := by
  refine (W8_arr m ρ c 4).trans ((Region2.final4 (V7 m ρ) c).trans ?_)
  show Region2.biasedOf (W7 m ρ c (Proc.devRef .tc main_v61)) (W7 m ρ c (Proc.devRef .tc main_v62)) = _
  rw [W7_agg, W7_bias]
theorem W8_logits : W8 m ρ c (Proc.devRef .tc main_v64_1) = Region2.headOf (aggOf (Region1.resultOf (aggOf (Region0.prodOf (m ((c.tc : Thread nD τ).loc main_arg0)) (m ((c.tc : Thread nD τ).loc main_arg1))) (normOf (srcOf (m ((c.tc : Thread nD τ).loc main_arg7))) (dstOf (m ((c.tc : Thread nD τ).loc main_arg7)))) (srcOf (m ((c.tc : Thread nD τ).loc main_arg7))) (dstOf (m ((c.tc : Thread nD τ).loc main_arg7)))) (shapeCast S1x128 (m ((c.tc : Thread nD τ).loc main_arg2)) shapeCasts_S128_S1x128) (m ((c.tc : Thread nD τ).loc main_arg3))) (normOf (srcOf (m ((c.tc : Thread nD τ).loc main_arg7))) (dstOf (m ((c.tc : Thread nD τ).loc main_arg7)))) (srcOf (m ((c.tc : Thread nD τ).loc main_arg7))) (dstOf (m ((c.tc : Thread nD τ).loc main_arg7)))) (shapeCast S1x128 (m ((c.tc : Thread nD τ).loc main_arg4)) shapeCasts_S128_S1x128) (m ((c.tc : Thread nD τ).loc main_arg5)) (shapeCast S1x10 (m ((c.tc : Thread nD τ).loc main_arg6)) shapeCasts_S10_S1x10) := by
  refine (W8_arr m ρ c 5).trans ((Region2.final5 (V7 m ρ) c).trans ?_)
  show Region2.headOf (W7 m ρ c (Proc.devRef .tc main_v61)) (W7 m ρ c (Proc.devRef .tc main_v62)) (W7 m ρ c (Proc.devRef .tc main_arg5)) (W7 m ρ c (Proc.devRef .tc main_v63)) = _
  rw [W7_agg, W7_bias, W7_arg5, W7_hbias]

/-! ## The results as the graph convolution of the arguments -/

/-- A vector reshaped to one row is the vector laid out as a one-row matrix. -/
theorem row_eq {n : Nat} (b : (⟨1, ![n]⟩ : Shape).Idx → EReal) (h : (⟨1, ![n]⟩ : Shape).ShapeCasts ⟨2, ![1, n]⟩)
    (h' : (⟨1, ![n]⟩ : Shape).BroadcastsInDim ⟨2, ![1, n]⟩ ![1]) :
    shapeCast ⟨2, ![1, n]⟩ b h = broadcastInDim ⟨2, ![1, n]⟩ ![1] h' b := by
  funext i
  obtain ⟨u, k, rfl⟩ : ∃ (u : Fin 1) (k : Fin n), i = ix2 u k := ⟨i 0, i 1, eq_ix2 i⟩
  obtain rfl : u = 0 := Subsingleton.elim _ _
  rw [Cert.LayoutReads.row_of_vec_apply, Cert.HostRead.vec_row_apply]

/-- The first result is `h`. -/
theorem h_eq : W8 m ρ c (Proc.devRef .tc main_v64_0) = hOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7)) := by
  rw [W8_h, row_eq _ _ Cert.ReferenceIdeal.Gen.bcast_S128_S1x128_1, row_eq _ _ Cert.ReferenceIdeal.Gen.bcast_S128_S1x128_1]
  rfl

/-- The second result is the logits of `h`. -/
theorem logits_eq : W8 m ρ c (Proc.devRef .tc main_v64_1) = logitsOf (hOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7))) (m ((c.tc : Thread nD τ).loc main_arg5)) (m ((c.tc : Thread nD τ).loc main_arg6)) := by
  rw [W8_logits, row_eq _ _ Cert.ReferenceIdeal.Gen.bcast_S128_S1x128_1, row_eq _ _ Cert.ReferenceIdeal.Gen.bcast_S128_S1x128_1,
    row_eq _ _ Cert.ReferenceIdeal.Gen.bcast_S10_S1x10_1]
  rfl

end Cert.KernelIdeal.Fold

end
-- ==== Proof.RefValue.lean ====
/-
  The reference's two results are the graph convolution of its arguments: its run's composed terms are the stages of
  GraphConv.lean spelt out, so each equation is an unfolding.
-/
import proofs.«164294_j83013127897500_2_alg».proof.Proof.RefRunPatched
import proofs.«164294_j83013127897500_2_alg».proof.Proof.GraphConv

set_option maxRecDepth 16384

noncomputable section

namespace Cert.ReferenceIdeal.RefValue

open Cert.ReferenceIdeal Cert.ReferenceIdeal.Gen Idealize.ShloMosaic Idealize.ShloMosaic.TcCoe Idealize.SL.Sem
open Cert.GraphConv

variable {F : FTy → Type} [FloatOps F] (m : (ℓ : Loc nD τ sig) → Buf (Elt F) ℓ) (c : Dev nD)

/-- The first result: `h`. -/
theorem res0_eq : ValueP.res_main_v92 m c = hOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7)) := by
  unfold ValueP.res_main_v92
  rfl

/-- The second result: the logits of `h`. -/
theorem res1_eq : ValueP.res_main_v96 m c = logitsOf (hOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7))) (m ((c.tc : Thread nD τ).loc main_arg5)) (m ((c.tc : Thread nD τ).loc main_arg6)) := by
  unfold ValueP.res_main_v96
  rfl

end Cert.ReferenceIdeal.RefValue

end
-- ==== Proof.lean ====
/-
  The certificate of a two-layer graph convolution: three row-tiled kernels (a matrix product; bias, rectifier and a
  matrix product; bias and the classifier head) with the edge aggregation between them on the host, against the plain
  host network. On the extended reals both compute

      hidden = max (aggregate (x · W1) + b1, 0),   h = aggregate (hidden · W2) + b2,   logits = h · Wf + bf,

  where one aggregation scatter-adds, into each edge's destination row, the edge's source row scaled by the edge's weight
  (GraphConv.lean). The kernels' results are read off their row blocks (Region0–2.lean), followed through the host
  operations between them (Fold.lean), and meet the reference's composed terms (RefValue.lean); narrowing to a 16-bit
  float and widening back are the identity on the extended reals, and no law of arithmetic is needed beyond the matrix
  product being the same sum in a kernel and on the host, so the precondition is not opened. The idealization changed no
  operation, so `preserves` has nothing to state.
-/
import proofs.«164294_j83013127897500_2_alg».proof.Defs
import proofs.«164294_j83013127897500_2_alg».proof.Proof.Gen.Kernel
import proofs.«164294_j83013127897500_2_alg».proof.Proof.Gen.Kernel.Skeleton
import proofs.«164294_j83013127897500_2_alg».proof.Proof.Gen.Kernel.Launch
import proofs.«164294_j83013127897500_2_alg».proof.Proof.Gen.Kernel.Points
import proofs.«164294_j83013127897500_2_alg».proof.Proof.Gen.Kernel.Frame
import proofs.«164294_j83013127897500_2_alg».proof.Proof.Gen.KernelIdeal
import proofs.«164294_j83013127897500_2_alg».proof.Proof.Gen.KernelIdeal.Skeleton
import proofs.«164294_j83013127897500_2_alg».proof.Proof.Gen.KernelIdeal.Launch
import proofs.«164294_j83013127897500_2_alg».proof.Proof.Gen.KernelIdeal.Points
import proofs.«164294_j83013127897500_2_alg».proof.Proof.Gen.KernelIdeal.Frame
import proofs.«164294_j83013127897500_2_alg».proof.Proof.Gen.ReferenceIdeal
import proofs.«164294_j83013127897500_2_alg».proof.Proof.Gen.Pre_finite_inputs
import proofs.«164294_j83013127897500_2_alg».proof.Proof.RefRunPatched
import proofs.«164294_j83013127897500_2_alg».proof.Proof.KernelRun
import proofs.«164294_j83013127897500_2_alg».proof.Proof.Fold
import proofs.«164294_j83013127897500_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_k : Cert.frame_Kernel := fun m ρ _ => Cert.Kernel.Gen.frame m ρ

/-- The idealized kernel runs and keeps its arguments. -/
theorem frame_ki : Cert.frame_KernelIdeal := fun m ρ _ => Cert.KernelIdeal.Gen.frame m ρ

/-- The reference runs and keeps its arguments: its run with the results dropped. -/
theorem frame_ri : Cert.frame_ReferenceIdeal := fun m ρ _ =>
  (θ_run Cert.ReferenceIdeal.defs _ _).mono (fun _ h c => (h c).2.2) (Cert.ReferenceIdeal.ValueP.run (F := Ideal) m ρ)

/-- Both idealized programs end with `h` and the logits of `h` of the arguments. -/
theorem algebraic : Cert.algebraic_KernelIdeal_ReferenceIdeal := by
  intro m ρ m' ρ' _ hagree
  refine ⟨fun c => (Cert.GraphConv.hOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg7))),
    fun c => Cert.GraphConv.logitsOf (Cert.GraphConv.hOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg7))) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · refine (θ_run Cert.KernelIdeal.defs _ _).mono (fun r h c => ?_) (Cert.KernelIdeal.Out.run_out (F := Ideal) m ρ)
    exact ⟨(h c).1.trans (Cert.KernelIdeal.Fold.h_eq m ρ c), (h c).2.1.trans (Cert.KernelIdeal.Fold.logits_eq m ρ c), (h c).2.2⟩
  · refine (θ_run Cert.ReferenceIdeal.defs _ _).mono (fun r h c => ?_) (Cert.ReferenceIdeal.ValueP.run (F := Ideal) m' ρ')
    obtain ⟨a0, a1, a2, a3, a4, a5, a6, a7⟩ := hagree c
    refine ⟨(h c).1.trans ?_, (h c).2.1.trans ?_, (h c).2.2⟩
    · rw [Cert.ReferenceIdeal.RefValue.res0_eq, a0, a1, a2, a3, a4, a7]
    · rw [Cert.ReferenceIdeal.RefValue.res1_eq, a0, a1, a2, a3, a4, a5, a6, a7]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
